-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v7)) (v1 : (c : Dev Cert.KernelIdeal.nD) → Buf (Elt Ideal) ((c.tc : Thread Cert.KernelIdeal.nD Cert.KernelIdeal.τ).loc Cert.KernelIdeal.main_v2)) (v2 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_v2) = v1 c
          ∧ r.2.mem ((c.tc : Thread Cert.KernelIdeal.nD Cert.KernelIdeal.τ).loc Cert.KernelIdeal.main_v4) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v97) = v0 c
          ∧ r.2.mem ((c.tc : Thread Cert.ReferenceIdeal.nD Cert.ReferenceIdeal.τ).loc Cert.ReferenceIdeal.main_v3) = v1 c
          ∧ r.2.mem ((c.tc : Thread Cert.ReferenceIdeal.nD Cert.ReferenceIdeal.τ).loc Cert.ReferenceIdeal.main_v94) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4194304x4 : Shape := ⟨2, ![4194304, 4]⟩
abbrev S4194304x1 : Shape := ⟨2, ![4194304, 1]⟩
abbrev S_ : Shape := ⟨0, ![]⟩

class Facts : Prop where
  bcast_S_S4194304x4 : S_.BroadcastsInDim S4194304x4 (![] : Fin 0 → Fin S4194304x4.rank)
  reducesTo_S4194304x4_S_d0_1 : S4194304x4.ReducesTo [0, 1] S_
  h_S_ : 0 < S_.numel
  bcast_S_S4194304x1 : S_.BroadcastsInDim S4194304x1 (![] : Fin 0 → Fin S4194304x1.rank)
  reducesTo_S4194304x1_S_d0_1 : S4194304x1.ReducesTo [0, 1] S_

variable [Facts]

def fn {F : FTy → Type} [FloatOps F] (main_arg0 : FVec F S4194304x4 .f32) (main_arg1 : FVec F S4194304x1 .f32) (main_arg2 : FVec F S4194304x4 .f32) : IVec S_ 1 :=
  let main_v0 : FVec F S4194304x4 .f32 := Host.absf main_arg0
  let main_cst : FVec F S_ .f32 := constant S_ .f32 0x7F800000#32
  let main_v1 : FVec F S4194304x4 .f32 := broadcastInDim S4194304x4 ![] bcast_S_S4194304x4 main_cst
  let main_v2 : IVec S4194304x4 1 := cmpf .olt main_v0 main_v1
  let main_c : IVec S_ 1 := constantI S_ 1 1#1
  let main_v3 : IVec S_ 1 := (fun x v => Host.reduce IntOp.andi x v reducesTo_S4194304x4_S_d0_1 h_S_) main_v2 main_c
  let main_v4 : FVec F S4194304x1 .f32 := Host.absf main_arg1
  let main_cst_0 : FVec F S_ .f32 := constant S_ .f32 0x7F800000#32
  let main_v5 : FVec F S4194304x1 .f32 := broadcastInDim S4194304x1 ![] bcast_S_S4194304x1 main_cst_0
  let main_v6 : IVec S4194304x1 1 := cmpf .olt main_v4 main_v5
  let main_c_1 : IVec S_ 1 := constantI S_ 1 1#1
  let main_v7 : IVec S_ 1 := (fun x v => Host.reduce IntOp.andi x v reducesTo_S4194304x1_S_d0_1 h_S_) main_v6 main_c_1
  let main_v8 : IVec S_ 1 := andi main_v3 main_v7
  let main_v9 : FVec F S4194304x4 .f32 := Host.absf main_arg2
  let main_cst_2 : FVec F S_ .f32 := constant S_ .f32 0x7F800000#32
  let main_v10 : FVec F S4194304x4 .f32 := broadcastInDim S4194304x4 ![] bcast_S_S4194304x4 main_cst_2
  let main_v11 : IVec S4194304x4 1 := cmpf .olt main_v9 main_v10
  let main_c_3 : IVec S_ 1 := constantI S_ 1 1#1
  let main_v12 : IVec S_ 1 := (fun x v => Host.reduce IntOp.andi x v reducesTo_S4194304x4_S_d0_1 h_S_) main_v11 main_c_3
  let main_v13 : IVec S_ 1 := andi main_v8 main_v12
  main_v13
-- ==== Kernel.lean ====
abbrev S4194304x4 : Shape := ⟨2, ![4194304, 4]⟩
abbrev S4194304x1 : Shape := ⟨2, ![4194304, 1]⟩
abbrev S1x1 : Shape := ⟨2, ![1, 1]⟩
abbrev S4096x4 : Shape := ⟨2, ![4096, 4]⟩
abbrev S4096x1 : Shape := ⟨2, ![4096, 1]⟩
abbrev S4096 : Shape := ⟨1, ![4096]⟩
abbrev S1 : Shape := ⟨1, ![1]⟩
abbrev S4096x2 : Shape := ⟨2, ![4096, 2]⟩
abbrev S_ : Shape := ⟨0, ![]⟩

abbrev nBuf : Space → Nat
  | .hbm => 16
  | .vmem => 8
  | .smem => 0
  | _ => 0

abbrev bufTy : (tb : Table) → Fin (tcTables nBuf tb) → BufTy
  | .hbm, ⟨0, _⟩ => ⟨S4194304x4, .f32⟩
  | .hbm, ⟨1, _⟩ => ⟨S4194304x1, .f32⟩
  | .hbm, ⟨2, _⟩ => ⟨S4194304x4, .f32⟩
  | .hbm, ⟨3, _⟩ => ⟨S1x1, .f32⟩
  | .hbm, ⟨4, _⟩ => ⟨S1x1, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .local _ .vmem, ⟨0, _⟩ => ⟨S4096x4, .f32⟩
  | .local _ .vmem, ⟨1, _⟩ => ⟨S4096x4, .f32⟩
  | .local _ .vmem, ⟨2, _⟩ => ⟨S4096x1, .f32⟩
  | .local _ .vmem, ⟨3, _⟩ => ⟨S4096x1, .f32⟩
  | .local _ .vmem, ⟨4, _⟩ => ⟨S4096x4, .f32⟩
  | .local _ .vmem, ⟨5, _⟩ => ⟨S4096x4, .f32⟩
  | .local _ .vmem, ⟨6, _⟩ => ⟨S1x1, .f32⟩
  | .local _ .vmem, ⟨7, _⟩ => ⟨S1x1, .f32⟩
  | _, _ => ⟨S4194304x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7

abbrev nD : Nat := 1
abbrev τ : Topo := Topo.v7x

variable {F : FTy → Type} [FloatOps F]

abbrev grid0 : Pipeline.Grid := ⟨1, ![1024], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S4096x4 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4096x4 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

class Facts₀ : Prop where
  inb_S1x1_S1x1_0_0 : ∀ a, (![0, 0] : Fin 2 → Nat) a + S1x1.size a ≤ S1x1.size a
  h_S1x1 : 0 < S1x1.numel
  inb_S4096x4_S4096x4_0_0 : ∀ a, (![0, 0] : Fin 2 → Nat) a + S4096x4.size a ≤ S4096x4.size a
  h_S4096x4 : 0 < S4096x4.numel
  reduces_S4096x4_S4096 : S4096x4.Reduces [1] S4096
  shapeCasts_S4096_S4096x1 : S4096.ShapeCasts S4096x1
  reduces_S4096x1_S1 : S4096x1.Reduces [0] S1
  shapeCasts_S1_S1x1 : S1.ShapeCasts S1x1
  slices_S4096x4_o0_2_S4096x2 : S4096x4.Slices ![0, 2] S4096x2
  slices_S4096x4_o0_0_S4096x2 : S4096x4.Slices ![0, 0] S4096x2
  slices_S4096x2_o0_0_S4096x1 : S4096x2.Slices ![0, 0] S4096x1
  slices_S4096x2_o0_1_S4096x1 : S4096x2.Slices ![0, 1] S4096x1
  inb_S4096x1_S4096x1_0_0 : ∀ a, (![0, 0] : Fin 2 → Nat) a + S4096x1.size a ≤ S4096x1.size a
  h_S4096x1 : 0 < S4096x1.numel
  shapeCasts_S1x1_S1x1 : S1x1.ShapeCasts S1x1
  shapeCasts_S1x1_S_ : S1x1.ShapeCasts S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x4.size a ≤ S4194304x4.size a
  hwx0_0 : ∀ i : grid0.Coords, EltTy.bits .f32 = 32 ∨ (Rect.block (s := S4194304x4) S4096x4.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x1.size a ≤ S4194304x1.size a
  hwx0_1 : ∀ i : grid0.Coords, EltTy.bits .f32 = 32 ∨ (Rect.block (s := S4194304x1) S4096x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4096x4.size a ≤ S4194304x4.size a
  hwx0_2 : ∀ i : grid0.Coords, EltTy.bits .f32 = 32 ∨ (Rect.block (s := S4194304x4) S4096x4.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1.size a ≤ S1x1.size a
  hwx0_3 : ∀ i : grid0.Coords, EltTy.bits .f32 = 32 ∨ (Rect.block (s := S1x1) S1x1.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1.size a ≤ S1x1.size a
  hwx0_4 : ∀ i : grid0.Coords, EltTy.bits .f32 = 32 ∨ (Rect.block (s := S1x1) S1x1.size (cc0_transform_4 i) (hinb0_4 i)).WholeWords (EltTy.packing .f32)

variable [Facts₀]

abbrev win0_0 : Pipeline.Window sig grid0 :=
  Pipeline.Window.ofSpec (Memref.whole main_arg0) S4096x4.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S4096x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S4096x4.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_0) S1x1.size cc0_transform_3 reads0_3 true true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0_1) S1x1.size cc0_transform_4 reads0_4 true true 1 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S4194304x4 : Shape := ⟨2, ![4194304, 4]⟩
abbrev S4194304x1 : Shape := ⟨2, ![4194304, 1]⟩
abbrev S_ : Shape := ⟨0, ![]⟩
abbrev S4194304 : Shape := ⟨1, ![4194304]⟩

abbrev nBuf : Space → Nat
  | .hbm => 126
  | .vmem => 0
  | .smem => 0
  | _ => 0

abbrev bufTy : (tb : Table) → Fin (tcTables nBuf tb) → BufTy
  | .hbm, ⟨0, _⟩ => ⟨S4194304x4, .f32⟩
  | .hbm, ⟨1, _⟩ => ⟨S4194304x1, .f32⟩
  | .hbm, ⟨2, _⟩ => ⟨S4194304x4, .f32⟩
  | .hbm, ⟨3, _⟩ => ⟨S4194304x4, .f32⟩
  | .hbm, ⟨4, _⟩ => ⟨S4194304x4, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S4194304x1, .f32⟩
  | .hbm, ⟨10, _⟩ => ⟨S4194304, .f32⟩
  | .hbm, ⟨11, _⟩ => ⟨S4194304x1, .f32⟩
  | .hbm, ⟨12, _⟩ => ⟨S4194304, .f32⟩
  | .hbm, ⟨13, _⟩ => ⟨S_, .f32⟩
  | .hbm, ⟨14, _⟩ => ⟨S4194304, .f32⟩
  | .hbm, ⟨15, _⟩ => ⟨S4194304, .f32⟩
  | .hbm, ⟨16, _⟩ => ⟨S4194304, .f32⟩
  | .hbm, ⟨17, _⟩ => ⟨S4194304x1, .f32⟩
  | .hbm, ⟨18, _⟩ => ⟨S4194304, .f32⟩
  | .hbm, ⟨19, _⟩ => ⟨S4194304x1, .f32⟩
  | .hbm, ⟨20, _⟩ => ⟨S4194304, .f32⟩
  | .hbm, ⟨21, _⟩ => ⟨S_, .f32⟩
  | .hbm, ⟨22, _⟩ => ⟨S4194304, .f32⟩
  | .hbm, ⟨23, _⟩ => ⟨S4194304, .f32⟩
  | .hbm, ⟨24, _⟩ => ⟨S4194304, .f32⟩
  | .hbm, ⟨25, _⟩ => ⟨S4194304x1, .f32⟩
  | .hbm, ⟨26, _⟩ => ⟨S4194304, .f32⟩
  | .hbm, ⟨27, _⟩ => ⟨S4194304x1, .f32⟩
  | .hbm, ⟨28, _⟩ => ⟨S4194304, .f32⟩
  | .hbm, ⟨29, _⟩ => ⟨S_, .f32⟩
  | .hbm, ⟨30, _⟩ => ⟨S4194304, .f32⟩
  | .hbm, ⟨31, _⟩ => ⟨S4194304, .f32⟩
  | .hbm, ⟨32, _⟩ => ⟨S4194304, .f32⟩
  | .hbm, ⟨33, _⟩ => ⟨S4194304x1, .f32⟩
  | .hbm, ⟨34, _⟩ => ⟨S4194304, .f32⟩
  | .hbm, ⟨35, _⟩ => ⟨S4194304x1, .f32⟩
  | .hbm, ⟨36, _⟩ => ⟨S4194304, .f32⟩
  | .hbm, ⟨37, _⟩ => ⟨S_, .f32⟩
  | .hbm, ⟨38, _⟩ => ⟨S4194304, .f32⟩
  | .hbm, ⟨39, _⟩ => ⟨S4194304, .f32⟩
  | .hbm, ⟨40, _⟩ => ⟨S4194304, .f32⟩
  | .hbm, ⟨41, _⟩ => ⟨S4194304x1, .f32⟩
  | .hbm, ⟨42, _⟩ => ⟨S4194304, .f32⟩
  | .hbm, ⟨43, _⟩ => ⟨S4194304x1, .f32⟩
  | .hbm, ⟨44, _⟩ => ⟨S4194304, .f32⟩
  | .hbm, ⟨45, _⟩ => ⟨S_, .f32⟩
  | .hbm, ⟨46, _⟩ => ⟨S4194304, .f32⟩
  | .hbm, ⟨47, _⟩ => ⟨S4194304, .f32⟩
  | .hbm, ⟨48, _⟩ => ⟨S4194304, .f32⟩
  | .hbm, ⟨49, _⟩ => ⟨S4194304x1, .f32⟩
  | .hbm, ⟨50, _⟩ => ⟨S4194304, .f32⟩
  | .hbm, ⟨51, _⟩ => ⟨S4194304x1, .f32⟩
  | .hbm, ⟨52, _⟩ => ⟨S4194304, .f32⟩
  | .hbm, ⟨53, _⟩ => ⟨S_, .f32⟩
  | .hbm, ⟨54, _⟩ => ⟨S4194304, .f32⟩
  | .hbm, ⟨55, _⟩ => ⟨S4194304, .f32⟩
  | .hbm, ⟨56, _⟩ => ⟨S4194304, .f32⟩
  | .hbm, ⟨57, _⟩ => ⟨S4194304x1, .f32⟩
  | .hbm, ⟨58, _⟩ => ⟨S4194304, .f32⟩
  | .hbm, ⟨59, _⟩ => ⟨S4194304x1, .f32⟩
  | .hbm, ⟨60, _⟩ => ⟨S4194304, .f32⟩
  | .hbm, ⟨61, _⟩ => ⟨S_, .f32⟩
  | .hbm, ⟨62, _⟩ => ⟨S4194304, .f32⟩
  | .hbm, ⟨63, _⟩ => ⟨S4194304, .f32⟩
  | .hbm, ⟨64, _⟩ => ⟨S4194304, .f32⟩
  | .hbm, ⟨65, _⟩ => ⟨S4194304x1, .f32⟩
  | .hbm, ⟨66, _⟩ => ⟨S4194304, .f32⟩
  | .hbm, ⟨67, _⟩ => ⟨S4194304x1, .f32⟩
  | .hbm, ⟨68, _⟩ => ⟨S4194304, .f32⟩
  | .hbm, ⟨69, _⟩ => ⟨S_, .f32⟩
  | .hbm, ⟨70, _⟩ => ⟨S4194304, .f32⟩
  | .hbm, ⟨71, _⟩ => ⟨S4194304, .f32⟩
  | .hbm, ⟨72, _⟩ => ⟨S4194304, .f32⟩
  | .hbm, ⟨73, _⟩ => ⟨S4194304, .f32⟩
  | .hbm, ⟨74, _⟩ => ⟨S4194304, .f32⟩
  | .hbm, ⟨75, _⟩ => ⟨S4194304, .f32⟩
  | .hbm, ⟨76, _⟩ => ⟨S4194304, .f32⟩
  | .hbm, ⟨77, _⟩ => ⟨S4194304, .f32⟩
  | .hbm, ⟨78, _⟩ => ⟨S_, .f32⟩
  | .hbm, ⟨79, _⟩ => ⟨S4194304, .f32⟩
  | .hbm, ⟨80, _⟩ => ⟨S4194304, .f32⟩
  | .hbm, ⟨81, _⟩ => ⟨S4194304, .f32⟩
  | .hbm, ⟨82, _⟩ => ⟨S_, .f32⟩
  | .hbm, ⟨83, _⟩ => ⟨S4194304, .f32⟩
  | .hbm, ⟨84, _⟩ => ⟨S4194304, .f32⟩
  | .hbm, ⟨85, _⟩ => ⟨S4194304, .f32⟩
  | .hbm, ⟨86, _⟩ => ⟨S4194304, .f32⟩
  | .hbm, ⟨87, _⟩ => ⟨S4194304, .f32⟩
  | .hbm, ⟨88, _⟩ => ⟨S4194304, .f32⟩
  | .hbm, ⟨89, _⟩ => ⟨S4194304, .f32⟩
  | .hbm, ⟨90, _⟩ => ⟨S4194304, .f32⟩
  | .hbm, ⟨91, _⟩ => ⟨S4194304, .f32⟩
  | .hbm, ⟨92, _⟩ => ⟨S4194304, .f32⟩
  | .hbm, ⟨93, _⟩ => ⟨S4194304, .f32⟩
  | .hbm, ⟨94, _⟩ => ⟨S_, .f32⟩
  | .hbm, ⟨95, _⟩ => ⟨S4194304, .f32⟩
  | .hbm, ⟨96, _⟩ => ⟨S4194304, .f32⟩
  | .hbm, ⟨97, _⟩ => ⟨S4194304, .f32⟩
  | .hbm, ⟨98, _⟩ => ⟨S4194304x1, .f32⟩
  | .hbm, ⟨99, _⟩ => ⟨S_, .f32⟩
  | .hbm, ⟨100, _⟩ => ⟨S_, .f32⟩
  | .hbm, ⟨101, _⟩ => ⟨S_, .f32⟩
  | .hbm, ⟨102, _⟩ => ⟨S4194304x1, .f32⟩
  | .hbm, ⟨103, _⟩ => ⟨S4194304x1, .f32⟩
  | .hbm, ⟨104, _⟩ => ⟨S_, .f32⟩
  | .hbm, ⟨105, _⟩ => ⟨S4194304x1, .f32⟩
  | .hbm, ⟨106, _⟩ => ⟨S4194304x1, .f32⟩
  | .hbm, ⟨107, _⟩ => ⟨S4194304x1, .f32⟩
  | .hbm, ⟨108, _⟩ => ⟨S4194304x1, .f32⟩
  | .hbm, ⟨109, _⟩ => ⟨S_, .f32⟩
  | .hbm, ⟨110, _⟩ => ⟨S4194304x1, .f32⟩
  | .hbm, ⟨111, _⟩ => ⟨S4194304x1, .f32⟩
  | .hbm, ⟨112, _⟩ => ⟨S4194304x1, .f32⟩
  | .hbm, ⟨113, _⟩ => ⟨S4194304x1, .f32⟩
  | .hbm, ⟨114, _⟩ => ⟨S4194304x1, .f32⟩
  | .hbm, ⟨115, _⟩ => ⟨S4194304x1, .f32⟩
  | .hbm, ⟨116, _⟩ => ⟨S_, .f32⟩
  | .hbm, ⟨117, _⟩ => ⟨S_, .f32⟩
  | .hbm, ⟨118, _⟩ => ⟨S_, .f32⟩
  | .hbm, ⟨119, _⟩ => ⟨S_, .f32⟩
  | .hbm, ⟨120, _⟩ => ⟨S_, .f32⟩
  | .hbm, ⟨121, _⟩ => ⟨S_, .f32⟩
  | .hbm, ⟨122, _⟩ => ⟨S_, .f32⟩
  | .hbm, ⟨123, _⟩ => ⟨S_, .f32⟩
  | .hbm, ⟨124, _⟩ => ⟨S_, .f32⟩
  | .hbm, ⟨125, _⟩ => ⟨S_, .f32⟩
  | _, _ => ⟨S4194304x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_2 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_cst_3 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_cst_4 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_cst_5 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_cst_6 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_cst_7 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_cst_8 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_cst_9 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_cst_10 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_v72 : Ref sig .tc := ⟨.hbm, 87, rfl⟩
abbrev main_v73 : Ref sig .tc := ⟨.hbm, 88, rfl⟩
abbrev main_v74 : Ref sig .tc := ⟨.hbm, 89, rfl⟩
abbrev main_v75 : Ref sig .tc := ⟨.hbm, 90, rfl⟩
abbrev main_v76 : Ref sig .tc := ⟨.hbm, 91, rfl⟩
abbrev main_v77 : Ref sig .tc := ⟨.hbm, 92, rfl⟩
abbrev main_v78 : Ref sig .tc := ⟨.hbm, 93, rfl⟩
abbrev main_cst_11 : Ref sig .tc := ⟨.hbm, 94, rfl⟩
abbrev main_v79 : Ref sig .tc := ⟨.hbm, 95, rfl⟩
abbrev main_v80 : Ref sig .tc := ⟨.hbm, 96, rfl⟩
abbrev main_v81 : Ref sig .tc := ⟨.hbm, 97, rfl⟩
abbrev main_v82 : Ref sig .tc := ⟨.hbm, 98, rfl⟩
abbrev main_cst_12 : Ref sig .tc := ⟨.hbm, 99, rfl⟩
abbrev main_cst_13 : Ref sig .tc := ⟨.hbm, 100, rfl⟩
abbrev main_call0_v0 : Ref sig .tc := ⟨.hbm, 101, rfl⟩
abbrev main_call0_v1 : Ref sig .tc := ⟨.hbm, 102, rfl⟩
abbrev main_call0_v2 : Ref sig .tc := ⟨.hbm, 103, rfl⟩
abbrev main_call0_v3 : Ref sig .tc := ⟨.hbm, 104, rfl⟩
abbrev main_call0_v4 : Ref sig .tc := ⟨.hbm, 105, rfl⟩
abbrev main_v83 : Ref sig .tc := ⟨.hbm, 106, rfl⟩
abbrev main_v84 : Ref sig .tc := ⟨.hbm, 107, rfl⟩
abbrev main_v85 : Ref sig .tc := ⟨.hbm, 108, rfl⟩
abbrev main_cst_14 : Ref sig .tc := ⟨.hbm, 109, rfl⟩
abbrev main_v86 : Ref sig .tc := ⟨.hbm, 110, rfl⟩
abbrev main_v87 : Ref sig .tc := ⟨.hbm, 111, rfl⟩
abbrev main_v88 : Ref sig .tc := ⟨.hbm, 112, rfl⟩
abbrev main_v89 : Ref sig .tc := ⟨.hbm, 113, rfl⟩
abbrev main_v90 : Ref sig .tc := ⟨.hbm, 114, rfl⟩
abbrev main_v91 : Ref sig .tc := ⟨.hbm, 115, rfl⟩
abbrev main_cst_15 : Ref sig .tc := ⟨.hbm, 116, rfl⟩
abbrev main_v92 : Ref sig .tc := ⟨.hbm, 117, rfl⟩
abbrev main_cst_16 : Ref sig .tc := ⟨.hbm, 118, rfl⟩
abbrev main_v93 : Ref sig .tc := ⟨.hbm, 119, rfl⟩
abbrev main_v94 : Ref sig .tc := ⟨.hbm, 120, rfl⟩
abbrev main_cst_17 : Ref sig .tc := ⟨.hbm, 121, rfl⟩
abbrev main_v95 : Ref sig .tc := ⟨.hbm, 122, rfl⟩
abbrev main_cst_18 : Ref sig .tc := ⟨.hbm, 123, rfl⟩
abbrev main_v96 : Ref sig .tc := ⟨.hbm, 124, rfl⟩
abbrev main_v97 : Ref sig .tc := ⟨.hbm, 125, rfl⟩

abbrev nD : Nat := 1
abbrev τ : Topo := Topo.v7x

variable {F : FTy → Type} [FloatOps F]

class Facts₀ : Prop where
  reducesTo_S4194304x4_S_d0_1 : S4194304x4.ReducesTo [0, 1] S_
  h_S_ : 0 < S_.numel
  slices_S4194304x4_S4194304x1_0_0 : S4194304x4.Slices ![0, 0] S4194304x1
  shapeCasts_S4194304x1_S4194304 : S4194304x1.ShapeCasts S4194304
  slices_S4194304x4_S4194304x1_0_2 : S4194304x4.Slices ![0, 2] S4194304x1
  bcast_S_S4194304 : S_.BroadcastsInDim S4194304 (![] : Fin 0 → Fin S4194304.rank)
  slices_S4194304x4_S4194304x1_0_1 : S4194304x4.Slices ![0, 1] S4194304x1
  slices_S4194304x4_S4194304x1_0_3 : S4194304x4.Slices ![0, 3] S4194304x1
  bcast_S4194304_S4194304x1_0 : S4194304.BroadcastsInDim S4194304x1 (![0] : Fin 1 → Fin S4194304x1.rank)
  bcast_S_S4194304x1 : S_.BroadcastsInDim S4194304x1 (![] : Fin 0 → Fin S4194304x1.rank)
  reducesTo_S4194304x1_S_d0_1 : S4194304x1.ReducesTo [0, 1] S_

variable [Facts₀]

class Facts : Prop extends Facts₀ where

variable [Facts]
-- ==== Proof.KernelPieces.lean ====
/-
  What one grid point leaves in the two accumulators.

  The body keeps two [1,1] accumulators across the 1024 grid points: the running sum of squared coordinate
  differences and the running sum of negated cross-entropies.  At the first point it stores zero into both and then
  adds the tile's partial sums; at every later point it adds the tile's partial sums to what the point before left.
  Read as values, with `x0`, `x1`, `x2` the point's three input blocks and `a3`, `a4` what the accumulators held:

      first point :  acc3 = 0 + tileSq x0 x2          acc4 = 0 + tileXent x0 x1 x2
      later point :  acc3 = a3 + tileSq x0 x2         acc4 = a4 + tileXent x0 x1 x2

  where the partial sums are the body's own payload terms (`k0_pay5`: the tile's sum of squares; `k0_pay6`: the tile's
  column of intersection-over-union targets; `k0_pay1`, `k0_pay2`: the two additions).  This holds at any float instance.
-/
import proofs.«117248_j41618233098445_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Acc

open Cert.KernelIdeal Cert.KernelIdeal.Gen

variable {F : FTy → Type} [FloatOps F]

theorem hz : (![0, 0] : Fin 2 → Nat) = fun _ => 0 := funext fun a => by fin_cases a <;> rfl

/-- A later point, first accumulator: what it held plus the tile's sum of squares. -/
theorem out_B_3 (c : Dev nD) (i : grid0.Coords) (a1 : Memref sig .tc .vmem S4096x4 .f32) (h1 : a1.IsWhole)
    (a2 : Memref sig .tc .vmem S4096x1 .f32) (h2 : a2.IsWhole) (a3 : Memref sig .tc .vmem S4096x4 .f32) (h3 : a3.IsWhole)
    (a4 : Memref sig .tc .vmem S1x1 .f32) (h4 : a4.IsWhole) (a5 : Memref sig .tc .vmem S1x1 .f32) (h5 : a5.IsWhole)
    (hc : ¬cond0_0 i) (x0 : Vec F S4096x4 .f32) (x1 : Vec F S4096x1 .f32) (x2 : Vec F S4096x4 .f32)
    (xo3 xo4 : Vec F S1x1 .f32) :
    out0_B_3 c i a1 h1 a2 h2 a3 h3 a4 h4 a5 h5 hc x0 x1 x2 xo3 xo4 = k0_pay1 (k0_pay5 x0 x2) xo3 := by
  unfold out0_B_3
  rw [View.read_writes_eq_canon _ _ _ (cover0_B_3 c i a1 h1 a2 h2 a3 h3 a4 h4 a5 h5 hc x0 x1 x2 xo3 xo4)]
  unfold kernelRun0_B
  dsimp only
  sl_unfold_words
  rw [View.canon_unit_zero hz]
  simp only [View.readAt_eq_ld, h1.read_unread, h2.read_unread, h3.read_unread, h4.read_unread, h5.read_unread,
    View.ld_unit_zero (S := S4096x4) hz, View.ld_unit_zero (S := S4096x1) hz, View.ld_unit_zero (S := S1x1) hz]

/-- A later point, second accumulator: what it held plus the tile's sum of negated cross-entropies. -/
theorem out_B_4 (c : Dev nD) (i : grid0.Coords) (a1 : Memref sig .tc .vmem S4096x4 .f32) (h1 : a1.IsWhole)
    (a2 : Memref sig .tc .vmem S4096x1 .f32) (h2 : a2.IsWhole) (a3 : Memref sig .tc .vmem S4096x4 .f32) (h3 : a3.IsWhole)
    (a4 : Memref sig .tc .vmem S1x1 .f32) (h4 : a4.IsWhole) (a5 : Memref sig .tc .vmem S1x1 .f32) (h5 : a5.IsWhole)
    (hc : ¬cond0_0 i) (x0 : Vec F S4096x4 .f32) (x1 : Vec F S4096x1 .f32) (x2 : Vec F S4096x4 .f32)
    (xo3 xo4 : Vec F S1x1 .f32) :
    out0_B_4 c i a1 h1 a2 h2 a3 h3 a4 h4 a5 h5 hc x0 x1 x2 xo3 xo4 = k0_pay2 (k0_pay6 x0 x2) x1 xo4 := by
  unfold out0_B_4
  rw [View.read_writes_eq_canon _ _ _ (cover0_B_4 c i a1 h1 a2 h2 a3 h3 a4 h4 a5 h5 hc x0 x1 x2 xo3 xo4)]
  unfold kernelRun0_B
  dsimp only
  sl_unfold_words
  rw [View.canon_unit_zero hz]
  simp only [View.readAt_eq_ld, h1.read_unread, h2.read_unread, h3.read_unread, h4.read_unread, h5.read_unread,
    View.ld_unit_zero (S := S4096x4) hz, View.ld_unit_zero (S := S4096x1) hz, View.ld_unit_zero (S := S1x1) hz]

/-- The first point, first accumulator: the stored zero, read back, plus the tile's sum of squares. -/
theorem out_A_3 (c : Dev nD) (i : grid0.Coords) (a1 : Memref sig .tc .vmem S4096x4 .f32) (h1 : a1.IsWhole)
    (a2 : Memref sig .tc .vmem S4096x1 .f32) (h2 : a2.IsWhole) (a3 : Memref sig .tc .vmem S4096x4 .f32) (h3 : a3.IsWhole)
    (a4 : Memref sig .tc .vmem S1x1 .f32) (h4 : a4.IsWhole) (a5 : Memref sig .tc .vmem S1x1 .f32) (h5 : a5.IsWhole)
    (hc : cond0_0 i) (x0 : Vec F S4096x4 .f32) (x1 : Vec F S4096x1 .f32) (x2 : Vec F S4096x4 .f32) :
    out0_A_3 c i a1 h1 a2 h2 a3 h3 a4 h4 a5 h5 hc x0 x1 x2 = k0_pay1 (k0_pay5 x0 x2) k0_pay3 := by
  unfold out0_A_3
  rw [View.read_writes_eq_canon _ _ _ (cover0_A_3 c i a1 h1 a2 h2 a3 h3 a4 h4 a5 h5 hc x0 x1 x2)]
  unfold kernelRun0_A
  dsimp only
  sl_unfold_words
  rw [View.canon_cons_unit_zero (S := S1x1) hz, View.readCov_unit_zero (S := S1x1) _ hz]
  simp only [View.readAt_eq_ld, h1.read_unread, h2.read_unread, h3.read_unread, h4.read_unread, h5.read_unread,
    View.ld_unit_zero (S := S4096x4) hz, View.ld_unit_zero (S := S4096x1) hz, View.ld_unit_zero (S := S1x1) hz]

/-- The first point, second accumulator: the stored zero, read back, plus the tile's sum of negated cross-entropies. -/
theorem out_A_4 (c : Dev nD) (i : grid0.Coords) (a1 : Memref sig .tc .vmem S4096x4 .f32) (h1 : a1.IsWhole)
    (a2 : Memref sig .tc .vmem S4096x1 .f32) (h2 : a2.IsWhole) (a3 : Memref sig .tc .vmem S4096x4 .f32) (h3 : a3.IsWhole)
    (a4 : Memref sig .tc .vmem S1x1 .f32) (h4 : a4.IsWhole) (a5 : Memref sig .tc .vmem S1x1 .f32) (h5 : a5.IsWhole)
    (hc : cond0_0 i) (x0 : Vec F S4096x4 .f32) (x1 : Vec F S4096x1 .f32) (x2 : Vec F S4096x4 .f32) :
    out0_A_4 c i a1 h1 a2 h2 a3 h3 a4 h4 a5 h5 hc x0 x1 x2 = k0_pay2 (k0_pay6 x0 x2) x1 k0_pay4 := by
  unfold out0_A_4
  rw [View.read_writes_eq_canon _ _ _ (cover0_A_4 c i a1 h1 a2 h2 a3 h3 a4 h4 a5 h5 hc x0 x1 x2)]
  unfold kernelRun0_A
  dsimp only
  sl_unfold_words
  rw [View.canon_cons_unit_zero (S := S1x1) hz, View.readCov_unit_zero (S := S1x1) _ hz]
  simp only [View.readAt_eq_ld, h1.read_unread, h2.read_unread, h3.read_unread, h4.read_unread, h5.read_unread,
    View.ld_unit_zero (S := S4096x4) hz, View.ld_unit_zero (S := S4096x1) hz, View.ld_unit_zero (S := S1x1) hz]

end Cert.KernelIdeal.Acc

end
-- ==== Proof.Spec.lean ====
/-
  The detection loss as one function of the three argument arrays, over the extended reals.

  A box is (cx, cy, w, h).  Along one axis a box with centre c and width w spans [c - w/2, c + w/2]; two boxes overlap
  along that axis by min(highs) - max(lows), clamped at zero.  The intersection is the product of the two axes' overlaps,
  each box's area the product of its two spans, and the target of a row is

      iou = intersection / (area_p + area_q - intersection + 1e-6).

  The confidence x of a row is clipped to [1e-7, 1 - 1e-7]; the row's cross-entropy (without the leading minus) is

      xent = iou * log x' + (1 - iou) * log (1 + (0 - x')).

  The three results:  coord = (sum over all 4194304 * 4 entries of (p - q)^2) / 16777216,
                      conf  = -((sum over all rows of xent) / 4194304),
                      total = 1 * coord + 1 * conf.
  Float literals stay as the patterns the two programs spell; Proof/RowLaw.lean evaluates the few whose value matters.
-/
import Idealize.ShloMosaic.PureOps.Ideal
import Idealize.ShloMosaic.Lib.ValueIdx

noncomputable section

open scoped BigOperators

namespace Cert.Loss

open Idealize.ShloMosaic Idealize.ShloMosaic.ValueIdx

/-- The low edge of the span with centre `c` and width `w`: `c - w * 0.5`. -/
def edgeLo (c w : EReal) : EReal := c - w * Ideal.ofBits .f32 0x3F000000#32
/-- The high edge: `c + w * 0.5`. -/
def edgeHi (c w : EReal) : EReal := c + w * Ideal.ofBits .f32 0x3F000000#32
/-- The overlap of two spans, clamped at zero. -/
def overlap (pc pw qc qw : EReal) : EReal :=
  max (min (edgeHi pc pw) (edgeHi qc qw) - max (edgeLo pc pw) (edgeLo qc qw)) (Ideal.ofBits .f32 0x00000000#32)
/-- A span's length as the programs compute it: high edge minus low edge. -/
def side (c w : EReal) : EReal := edgeHi c w - edgeLo c w

/-- Intersection of the boxes `p` and `q`. -/
def inter (p q : Fin 4 → EReal) : EReal := overlap (p 0) (p 2) (q 0) (q 2) * overlap (p 1) (p 3) (q 1) (q 3)
/-- Area of the box `p`. -/
def area (p : Fin 4 → EReal) : EReal := side (p 0) (p 2) * side (p 1) (p 3)
/-- Intersection over union, with the 1e-6 guard in the denominator. -/
def iou (p q : Fin 4 → EReal) : EReal :=
  Ideal.div (inter p q) (area p + area q - inter p q + Ideal.ofBits .f32 0x358637BD#32)

/-- A confidence clipped to [1e-7, 1 - 1e-7]. -/
def clip (x : EReal) : EReal := min (Ideal.ofBits .f32 0x3F7FFFFE#32) (max (Ideal.ofBits .f32 0x33D6BF95#32) x)
/-- The row's cross-entropy against the target `u`, without the leading minus. -/
def xent (u x : EReal) : EReal :=
  u * Ideal.log (clip x) + (Ideal.ofBits .f32 0x3F800000#32 - u) * Ideal.log1p (Ideal.ofBits .f32 0x00000000#32 - clip x)

/-- A [4194304, 4] array and a [4194304, 1] array of extended reals. -/
abbrev Arr4 : Type := (⟨2, ![4194304, 4]⟩ : Shape).Idx → EReal
abbrev Arr1 : Type := (⟨2, ![4194304, 1]⟩ : Shape).Idx → EReal

/-- Row `r` of a [4194304, 4] array. -/
def rowOf (x : Arr4) (r : Fin 4194304) : Fin 4 → EReal := fun l => x (ix2 r l)
/-- The squared difference of two entries. -/
def sqd (a b : EReal) : EReal := (a - b) * (a - b)
/-- Row `r`'s cross-entropy term. -/
def rowLoss (x0 : Arr4) (x1 : Arr1) (x2 : Arr4) (r : Fin 4194304) : EReal :=
  xent (iou (rowOf x0 r) (rowOf x2 r)) (x1 (ix2 r 0))

/-- The sum of all squared differences. -/
def sqSum (x0 x2 : Arr4) : EReal := ∑ r : Fin 4194304, ∑ l : Fin 4, sqd (x0 (ix2 r l)) (x2 (ix2 r l))
/-- The sum of all rows' cross-entropy terms. -/
def xentSum (x0 : Arr4) (x1 : Arr1) (x2 : Arr4) : EReal := ∑ r : Fin 4194304, rowLoss x0 x1 x2 r

/-- The mean squared coordinate error. -/
def coordLoss (x0 x2 : Arr4) : EReal := Ideal.div (sqSum x0 x2) (Ideal.ofBits .f32 0x4B800000#32)
/-- The mean cross-entropy, negated. -/
def confLoss (x0 : Arr4) (x1 : Arr1) (x2 : Arr4) : EReal :=
  -(Ideal.div (xentSum x0 x1 x2) (Ideal.ofBits .f32 0x4A800000#32))
/-- The weighted total (both weights `1.0`). -/
def totalLoss (x0 : Arr4) (x1 : Arr1) (x2 : Arr4) : EReal :=
  Ideal.ofBits .f32 0x3F800000#32 * coordLoss x0 x2 + Ideal.ofBits .f32 0x3F800000#32 * confLoss x0 x1 x2

end Cert.Loss

end
-- ==== Proof.LibKeepdims.lean ====
/-
  A reduction along the last axis of an `[a, b]` array that keeps its dimension (`keepdims=True`): the `[a]` result is
  re-laid as a column `[a, 1]` and the column is spread back over the `b` lanes of every row. Read at an index, the
  column at `(i, u)` is the vector at `i`, the spread column at `(p, c)` is the column at `(p, 0)`, and the source
  index that a one-axis reduction along axis 1 visits for row `p` and coordinate `k` is `(p, k)`. Stated for any
  extents `a`, `b` and any element type.
-/
import Idealize.ShloMosaic.Lib.Pipeline.Value
import Idealize.ShloMosaic.Lib.ValueIdx
import Idealize.ShloMosaic.PureOps.Reduce

namespace Cert.Lib.Keepdims

open Idealize.ShloMosaic Idealize.ShloMosaic.ValueIdx

variable {α : Type}

/-- An `[a]` vector cast to the column `[a, 1]` reads, at `(i, u)`, the vector at `i`, whatever the unit coordinate `u`:
    both positions are `i` in row-major order. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The two together: a vector re-laid as a column and spread over the lanes reads, at `(p, c)`, the vector at `p`. -/
theorem column_spread_apply {a b : ℕ} (x : (⟨1, ![a]⟩ : Shape).Idx → α) (hc : (⟨1, ![a]⟩ : Shape).ShapeCasts ⟨2, ![a, 1]⟩)
    (hb : (⟨2, ![a, 1]⟩ : Shape).Broadcasts ⟨2, ![a, b]⟩) (p : Fin a) (c : Fin b) :
    broadcastTo ⟨2, ![a, b]⟩ (shapeCast ⟨2, ![a, 1]⟩ x hc) hb (ix2 p c) = x (ix1 p) :=
  (broadcastTo_a1_ab_apply _ hb p c).trans (shapeCast_a_a1_apply x hc p 0)

/-- A one-axis reduction of `[a, b]` along axis 1 visits, for row `p` and coordinate `k` of the reduced axis, the
    source index `(p, k)`. -/
theorem lift_axis1 {a b : ℕ} (h : (⟨2, ![a, b]⟩ : Shape).Reduces [1] ⟨1, ![a]⟩) (p : Fin a) (k : Fin b) :
    h.lift (ix1 p) k = ix2 p k :=
  funext fun c => Fin.ext (by match c with | ⟨0, _⟩ => rfl | ⟨1, _⟩ => rfl)

end Cert.Lib.Keepdims
-- ==== Proof.LibColumnSum.lean ====
/-
  Three general readings used when a kernel sums a column of per-row terms.

  * A one-axis reduction of an `[a, b]` array along axis 0 visits, for column `q` and coordinate `k` of the reduced
    axis, the source index `(k, q)` (the axis-1 companion is the index `(p, k)`).
  * A lane slice `[0:n, o:o+b]` of an `[n, a]` array reads, at `(k, c)`, the array at `(k, o + c)`: any extents, any
    offset, any element type.
  * On the extended reals negation does not pass through a sum in general (-(⊤ + ⊥) = ⊤ while -⊤ + -⊥ = ⊥), but a
    finite sum of terms none of which is +∞ is not +∞ and its negation is the sum of the negations.
-/
import Idealize.ShloMosaic.Lib.Pipeline.Value
import Idealize.ShloMosaic.Lib.ValueIdx
import Idealize.ShloMosaic.PureOps.Reduce

open scoped BigOperators

namespace Cert.Lib.ColumnSum

open Idealize.ShloMosaic Idealize.ShloMosaic.ValueIdx

/-- A one-axis reduction of `[a, b]` along axis 0 visits, for column `q` and coordinate `k`, the source index `(k, q)`. -/
theorem lift_axis0 {a b : ℕ} (h : (⟨2, ![a, b]⟩ : Shape).Reduces [0] ⟨1, ![b]⟩) (q : Fin b) (k : Fin a) :
    h.lift (ix1 q) k = ix2 k q :=
  funext fun c => Fin.ext (by match c with | ⟨0, _⟩ => rfl | ⟨1, _⟩ => rfl)

/-- A lane slice `[0:n, o:o+b]` of an `[n, a]` array reads, at `(k, c)`, the array at `(k, o + c)`. -/
theorem laneSlice_apply {α : Type} {n a b o : ℕ} (x : (⟨2, ![n, a]⟩ : Shape).Idx → α)
    (h : (⟨2, ![n, a]⟩ : Shape).Slices ![0, o] ⟨2, ![n, b]⟩) (k : Fin n) (c : Fin b) (c' : Fin a) (hc : c'.val = o + c.val) :
    extractStridedSlice ⟨2, ![n, b]⟩ ![0, o] x h (ix2 k c) = x (ix2 k c') :=
  extractStridedSlice_apply ![0, o] x h (ix2 k c) (ix2 k c') fun ax => by
    match ax with
    | ⟨0, _⟩ => show k.val = 0 + k.val; omega
    | ⟨1, _⟩ => exact hc

/-- A finite sum of extended reals none of which is +∞ is not +∞, and its negation is the sum of the negations. -/
theorem sum_neg_of_ne_top {ι : Type*} (s : Finset ι) (a : ι → EReal) (h : ∀ i ∈ s, a i ≠ ⊤) :
    ∑ i ∈ s, a i ≠ ⊤ ∧ ∑ i ∈ s, -(a i) = -(∑ i ∈ s, a i) := by
  classical
  induction s using Finset.induction_on with
  | empty => simp
  | insert i s hi ih =>
    have hs := ih (fun j hj => h j (Finset.mem_insert_of_mem hj))
    have hai := h i (Finset.mem_insert_self i s)
    rw [Finset.sum_insert hi, Finset.sum_insert hi]
    refine ⟨EReal.add_ne_top hai hs.1, ?_⟩
    rw [hs.2, EReal.neg_add (Or.inr hs.1) (Or.inl hai), sub_eq_add_neg]

end Cert.Lib.ColumnSum
-- ==== Proof.KernelTile.lean ====
/-
  One tile's partial sums, read entry by entry over the extended reals.

  A tile is 4096 rows.  With `x0`, `x2` the tile's two [4096, 4] coordinate blocks and `x1` its [4096, 1] confidences:

    * the tile's sum of squares (a lane sum of each row's four squared differences, re-laid as a column, then a sum down
      the column) is  ∑ k < 4096, ∑ l < 4, (x0 (k, l) - x2 (k, l))²;
    * the tile's target column at row k is the intersection over union of the boxes x0 (k, ·) and x2 (k, ·): the body
      works on two-lane pieces (centres are lanes 0-1, widths lanes 2-3), so lane a of a piece pairs centre a with
      width a + 2;
    * the second accumulator's increment is  ∑ k < 4096, (0 - xent (target k) (x1 (k, 0))).

  Every step is the operation's own reading at an index: a lane or column sum is a finite sum over the reduced
  coordinate, a re-laid vector keeps its row-major position, a lane slice shifts the lane coordinate by its offset, and
  the pointwise operations act entry by entry.
-/
import proofs.«117248_j41618233098445_1_alg».proof.Proof.Gen.KernelIdeal.Skeleton
import proofs.«117248_j41618233098445_1_alg».proof.Proof.Spec
import proofs.«117248_j41618233098445_1_alg».proof.Proof.LibKeepdims
import proofs.«117248_j41618233098445_1_alg».proof.Proof.LibColumnSum
import Idealize.ShloMosaic.Lib.Pipeline.Value
import Idealize.ShloMosaic.Lib.ValueIdx
import Idealize.ShloMosaic.PureOps.Ideal.Laws

noncomputable section

open scoped BigOperators

namespace Cert.KernelIdeal.Tile

open Idealize.ShloMosaic Idealize.ShloMosaic.ValueIdx Cert.KernelIdeal Cert.KernelIdeal.Gen Cert.Loss Cert.Lib.Keepdims Cert.Lib.ColumnSum

/-! ## The tile's sum of squares -/

/-- The tile's sum of squares, at the one entry of its [1, 1] result. -/
theorem pay5_apply (x0 x2 : Vec Ideal S4096x4 .f32) (j : S1x1.Idx) :
    k0_pay5 (F := Ideal) x0 x2 j = ∑ k : Fin 4096, ∑ l : Fin 4, sqd (x0 (ix2 k l)) (x2 (ix2 k l)) := by
  obtain ⟨a, b, rfl⟩ : ∃ (a : Fin 1) (b : Fin 1), j = ix2 a b := ⟨j 0, j 1, eq_ix2 j⟩
  unfold k0_pay5
  refine (shapeCast_a_a1_apply _ shapeCasts_S1_S1x1 a b).trans ?_
  refine (Ideal.multiReduction_add_single _ _ reduces_S4096x1_S1 _ _ (ix1 a)).trans ?_
  refine Finset.sum_congr rfl fun k _ => ?_
  refine (congrArg (shapeCast S4096x1 _ shapeCasts_S4096_S4096x1) (lift_axis0 reduces_S4096x1_S1 a k)).trans ?_
  refine (shapeCast_a_a1_apply _ shapeCasts_S4096_S4096x1 k a).trans ?_
  refine (Ideal.multiReduction_add_single _ _ reduces_S4096x4_S4096 _ _ (ix1 k)).trans ?_
  refine Finset.sum_congr rfl fun l _ => ?_
  rw [lift_axis1 reduces_S4096x4_S4096 k l]
  rfl

/-! ## The tile's target column -/

/-- The tile's target at row `k`: the intersection over union of the two boxes of that row. -/
theorem pay6_apply (x0 x2 : Vec Ideal S4096x4 .f32) (k : Fin 4096) :
    k0_pay6 (F := Ideal) x0 x2 (ix2 k (0 : Fin 1)) = iou (fun l => x0 (ix2 k l)) (fun l => x2 (ix2 k l)) := by
  unfold k0_pay6
  simp only [divf_apply, addf_apply, subf_apply, mulf_apply, maximumf_apply, minimumf_apply, broadcast_apply,
    laneSlice_apply _ slices_S4096x2_o0_0_S4096x1 k (0 : Fin 1) (0 : Fin 2) rfl,
    laneSlice_apply _ slices_S4096x2_o0_1_S4096x1 k (0 : Fin 1) (1 : Fin 2) rfl,
    laneSlice_apply _ slices_S4096x4_o0_0_S4096x2 k (0 : Fin 2) (0 : Fin 4) rfl,
    laneSlice_apply _ slices_S4096x4_o0_0_S4096x2 k (1 : Fin 2) (1 : Fin 4) rfl,
    laneSlice_apply _ slices_S4096x4_o0_2_S4096x2 k (0 : Fin 2) (2 : Fin 4) rfl,
    laneSlice_apply _ slices_S4096x4_o0_2_S4096x2 k (1 : Fin 2) (3 : Fin 4) rfl]
  rfl

/-! ## The two additions into the accumulators -/

/-- The first accumulator's new value: what it held plus the tile's sum of squares. -/
theorem pay1_apply (v10 v62 : Vec Ideal S1x1 .f32) (j : S1x1.Idx) :
    k0_pay1 (F := Ideal) v10 v62 j = v62 j + v10 j := by
  unfold k0_pay1
  rw [shapeCast_self]
  rfl

/-- The second accumulator's new value: what it held plus the tile's sum of negated cross-entropies. -/
theorem pay2_apply (v43 v44 : Vec Ideal S4096x1 .f32) (v66 : Vec Ideal S1x1 .f32) (j : S1x1.Idx) :
    k0_pay2 (F := Ideal) v43 v44 v66 j
      = v66 j + ∑ k : Fin 4096, (Ideal.ofBits .f32 0x00000000#32 - xent (v43 (ix2 k (0 : Fin 1))) (v44 (ix2 k (0 : Fin 1)))) := by
  obtain ⟨a, b, rfl⟩ : ∃ (a : Fin 1) (b : Fin 1), j = ix2 a b := ⟨j 0, j 1, eq_ix2 j⟩
  obtain rfl : a = 0 := Subsingleton.elim _ _
  unfold k0_pay2
  rw [shapeCast_self]
  refine congrArg (v66 (ix2 0 b) + ·) ?_
  refine (shapeCast_a_a1_apply _ shapeCasts_S1_S1x1 (0 : Fin 1) b).trans ?_
  refine (Ideal.multiReduction_add_single _ _ reduces_S4096x1_S1 _ _ (ix1 (0 : Fin 1))).trans ?_
  refine Finset.sum_congr rfl fun k _ => ?_
  rw [lift_axis0 reduces_S4096x1_S1 (0 : Fin 1) k]
  rfl

/-- The zero the first point stores. -/
theorem pay3_apply (j : S1x1.Idx) : k0_pay3 (F := Ideal) j = Ideal.ofBits .f32 0x00000000#32 := rfl
theorem pay4_apply (j : S1x1.Idx) : k0_pay4 (F := Ideal) j = Ideal.ofBits .f32 0x00000000#32 := rfl

end Cert.KernelIdeal.Tile

end
-- ==== Proof.RowLaw.lean ====
/-
  The facts about extended reals that the two arrangements of the loss meet in.

  * The few float literals whose VALUE matters: 0.5 and 2.0 (a product with 0.5 is the quotient by 2.0 on every
    extended real), the row count 4194304.0 (not zero, so a quotient by it commutes with negation), and the clipping
    bounds 1e-7 and 1 - 1.2e-7 (both strictly between 0 and 1).
  * A clipped confidence is a real in (0, 1) whatever the input, so both logarithms of a row's cross-entropy are
    NEGATIVE REALS; then the cross-entropy is never +∞, whatever the target: for a real target it is real, and for a
    target ±∞ (a division by zero in the intersection-over-union) one product is +∞ and the other -∞, whose sum is -∞.
  * (That a finite sum of terms none of which is +∞ commutes with negation is Proof/LibColumnSum.lean.)
  * Regrouping: a sum over 4194304 rows is the sum over 1024 tiles of the sums over each tile's 4096 rows.
-/
import Idealize.ShloMosaic.PureOps.Ideal
import Idealize.ShloMosaic.PureOps.Ideal.Laws
import proofs.«117248_j41618233098445_1_alg».proof.Proof.Spec

noncomputable section

open scoped BigOperators

namespace Cert.Loss

open Idealize.ShloMosaic

/-! ## Literals -/

theorem ofBits_half : Ideal.ofBits .f32 0x3F000000#32 = ((1 / 2 : ℝ) : EReal) := by
  simp [Ideal.ofBits, Ideal.ieee, -EReal.coe_mul]; norm_num
theorem ofBits_one : Ideal.ofBits .f32 0x3F800000#32 = ((1 : ℝ) : EReal) := by
  simp [Ideal.ofBits, Ideal.ieee, -EReal.coe_mul]; norm_num
theorem ofBits_two : Ideal.ofBits .f32 0x40000000#32 = ((2 : ℝ) : EReal) := by
  simp [Ideal.ofBits, Ideal.ieee, -EReal.coe_mul]; norm_num
theorem ofBits_rows : Ideal.ofBits .f32 0x4A800000#32 = ((4194304 : ℝ) : EReal) := by
  simp [Ideal.ofBits, Ideal.ieee, -EReal.coe_mul]; norm_num
theorem ofBits_lo : Ideal.ofBits .f32 0x33D6BF95#32 = ((14073749 / 2 ^ 47 : ℝ) : EReal) := by
  simp [Ideal.ofBits, Ideal.ieee, -EReal.coe_mul]; norm_num
theorem ofBits_hi : Ideal.ofBits .f32 0x3F7FFFFE#32 = ((16777214 / 2 ^ 24 : ℝ) : EReal) := by
  simp [Ideal.ofBits, Ideal.ieee, -EReal.coe_mul]; norm_num

/-- The quotient by `2.0` is the product with `0.5`, on every extended real. -/
theorem div_two (x : EReal) : Ideal.div x (Ideal.ofBits .f32 0x40000000#32) = x * Ideal.ofBits .f32 0x3F000000#32 := by
  rw [ofBits_two, ofBits_half]
  exact Ideal.div_coe (by norm_num) x

/-- Subtracting from the zero literal is negation. -/
theorem zero_sub_eq_neg (x : EReal) : Ideal.ofBits .f32 0x00000000#32 - x = -x := by
  rw [Ideal.ofBits_zero_f32, zero_sub]

/-- Adding to the zero literal does nothing. -/
theorem zero_add_eq (x : EReal) : Ideal.ofBits .f32 0x00000000#32 + x = x := by
  rw [Ideal.ofBits_zero_f32, zero_add]

/-- The quotient by the row count commutes with negation (the row count is not zero). -/
theorem neg_div_rows (s : EReal) :
    Ideal.div (-s) (Ideal.ofBits .f32 0x4A800000#32) = -(Ideal.div s (Ideal.ofBits .f32 0x4A800000#32)) := by
  have h : ((4194304 : ℝ) : EReal) ≠ 0 := by
    intro h0; have := EReal.coe_eq_zero.mp h0; norm_num at this
  unfold Ideal.div
  rw [ofBits_rows, if_neg h, if_neg h, EReal.neg_mul]

/-! ## A row's cross-entropy is never +∞ -/

/-- A clipped confidence is a real strictly between 0 and 1. -/
theorem clip_real (x : EReal) : ∃ p : ℝ, clip x = (p : EReal) ∧ 0 < p ∧ p < 1 := by
  have hlo : (0 : ℝ) < 14073749 / 2 ^ 47 := by norm_num
  have hhi0 : (0 : ℝ) < 16777214 / 2 ^ 24 := by norm_num
  have hhi1 : (16777214 / 2 ^ 24 : ℝ) < 1 := by norm_num
  have hle : clip x ≤ ((16777214 / 2 ^ 24 : ℝ) : EReal) := by
    unfold clip; rw [ofBits_hi]; exact min_le_left _ _
  have hge : ((min (16777214 / 2 ^ 24) (14073749 / 2 ^ 47) : ℝ) : EReal) ≤ clip x := by
    unfold clip; rw [ofBits_hi, ofBits_lo]
    refine le_min ?_ ?_
    · exact EReal.coe_le_coe_iff.mpr (min_le_left _ _)
    · exact le_trans (EReal.coe_le_coe_iff.mpr (min_le_right _ _)) (le_max_left _ _)
  have hnt : clip x ≠ ⊤ := ne_top_of_le_ne_top (EReal.coe_ne_top _) hle
  have hnb : clip x ≠ ⊥ := ne_bot_of_le_ne_bot (EReal.coe_ne_bot _) hge
  lift clip x to ℝ using ⟨hnt, hnb⟩ with p hp
  refine ⟨p, rfl, ?_, ?_⟩
  · exact lt_of_lt_of_le (lt_min hhi0 hlo) (EReal.coe_le_coe_iff.mp hge)
  · exact lt_of_le_of_lt (EReal.coe_le_coe_iff.mp hle) hhi1

/-- With both logarithms negative reals, `u * a + (1 - u) * b` is never +∞. -/
theorem mix_ne_top (u : EReal) {a b : ℝ} (ha : a < 0) (hb : b < 0) :
    u * (a : EReal) + (Ideal.ofBits .f32 0x3F800000#32 - u) * (b : EReal) ≠ ⊤ := by
  rw [ofBits_one]
  induction u using EReal.rec with
  | bot =>
    rw [EReal.bot_mul_coe_of_neg ha, sub_eq_add_neg, EReal.neg_bot, EReal.coe_add_top, EReal.top_mul_coe_of_neg hb,
      EReal.add_bot]
    exact bot_ne_top
  | coe r =>
    rw [← EReal.coe_sub, ← EReal.coe_mul, ← EReal.coe_mul, ← EReal.coe_add]
    exact EReal.coe_ne_top _
  | top =>
    rw [EReal.top_mul_coe_of_neg ha, EReal.bot_add]
    exact bot_ne_top

/-- A row's cross-entropy is never +∞, whatever the target and the confidence. -/
theorem xent_ne_top (u x : EReal) : xent u x ≠ ⊤ := by
  obtain ⟨p, hp, h0, h1⟩ := clip_real x
  unfold xent
  rw [hp, zero_sub_eq_neg]
  have e1 : Ideal.log (p : EReal) = ((Real.log p : ℝ) : EReal) := by
    rw [Ideal.log_coe, if_neg (not_le.mpr h0)]
  have e2 : Ideal.log1p (-(p : EReal)) = ((Real.log (1 - p) : ℝ) : EReal) := by
    unfold Ideal.log1p
    rw [← EReal.coe_neg, ← EReal.coe_one, ← EReal.coe_add, Ideal.log_coe, if_neg (by linarith), ← sub_eq_add_neg]
  rw [e1, e2]
  exact mix_ne_top u (Real.log_neg h0 h1) (Real.log_neg (by linarith) (by linarith))

/-! ## Rows by tiles -/

/-- Row `k` of tile `t`: row `4096 t + k` of the array. -/
def tileRow (t : Fin 1024) (k : Fin 4096) : Fin 4194304 :=
  ⟨4096 * t.val + k.val, by have := t.isLt; have := k.isLt; omega⟩

/-- A sum over all rows is the sum over the tiles of the sums over each tile's rows. -/
theorem sum_rows_by_tiles {M : Type*} [AddCommMonoid M] (g : Fin 4194304 → M) :
    ∑ r : Fin 4194304, g r = ∑ t : Fin 1024, ∑ k : Fin 4096, g (tileRow t k) := by
  rw [← Equiv.sum_comp (finProdFinEquiv : Fin 1024 × Fin 4096 ≃ Fin 4194304) g, Fintype.sum_prod_type]
  refine Finset.sum_congr rfl fun t _ => Finset.sum_congr rfl fun k _ => ?_
  congr 1
  apply Fin.ext
  show k.val + 4096 * t.val = 4096 * t.val + k.val
  omega

end Cert.Loss

end
-- ==== Proof.KernelAcc.lean ====
/-
  The two accumulators after every grid point, and after the last.

  Point by point the accumulators follow the recursion of Proof/KernelPieces.lean: zero plus the first tile's partial
  sums, then each later tile's partial sums added to what the point before left (`accAt`, `outsAt_eq`: an induction on
  the point, never an enumeration of the 1024 points).

  Over the extended reals the recursion has a closed form.  Tile `t` stages rows `4096 t … 4096 t + 4095` of each
  argument array (`blk0_apply`, `blk1_apply`, `blk2_apply`: a block's entry (k, l) is the array's entry
  (4096 t + k, l)), so after point `n` the first accumulator holds the sum over tiles `0 … n` of each tile's sum of
  squares and the second the sum over the same tiles of the negated cross-entropies of their rows; the stored zero and
  the zero each column sum starts from add nothing.  After the last point these are sums over ALL rows, regrouped by
  tiles (`Cert.Loss.sum_rows_by_tiles`): the first accumulator is `sqSum`, and the second — a sum of negations of terms
  none of which is +∞ (`Cert.Loss.xent_ne_top`) — is `-xentSum`.
-/
import proofs.«117248_j41618233098445_1_alg».proof.Proof.KernelPieces
import proofs.«117248_j41618233098445_1_alg».proof.Proof.KernelTile
import proofs.«117248_j41618233098445_1_alg».proof.Proof.RowLaw

noncomputable section

open scoped BigOperators

open Idealize.ShloMosaic Idealize.ShloMosaic.TcCoe Idealize.SL.Sem Idealize.ShloMosaic.ValueIdx
open Idealize.ShloMosaic.Pipeline (Dat)

namespace Cert.KernelIdeal.Acc

open Cert.KernelIdeal Cert.KernelIdeal.Gen Cert.Loss

/-! ## The recursion, at any float instance -/

section AnyInstance

variable {F : FTy → Type} [FloatOps F]
variable (m : (ℓ : Loc nD τ sig) → Buf (Elt F) ℓ)

/-- The two accumulators after point `n`. -/
def accAt (c : Dev nD) : (n : ℕ) → n < cfg0.N → Vec F S1x1 .f32 × Vec F S1x1 .f32
  | 0, h =>
    (k0_pay1 (k0_pay5 (iblk m c 0 ⟨0, h⟩) (iblk m c 2 ⟨0, h⟩)) k0_pay3,
     k0_pay2 (k0_pay6 (iblk m c 0 ⟨0, h⟩) (iblk m c 2 ⟨0, h⟩)) (iblk m c 1 ⟨0, h⟩) k0_pay4)
  | n + 1, h =>
    (k0_pay1 (k0_pay5 (iblk m c 0 ⟨n + 1, h⟩) (iblk m c 2 ⟨n + 1, h⟩)) (accAt c n (Nat.lt_of_succ_lt h)).1,
     k0_pay2 (k0_pay6 (iblk m c 0 ⟨n + 1, h⟩) (iblk m c 2 ⟨n + 1, h⟩)) (iblk m c 1 ⟨n + 1, h⟩) (accAt c n (Nat.lt_of_succ_lt h)).2)

/-- What the accumulators' staging buffers hold after point `n` is that recursion. -/
theorem outsAt_eq (c : Dev nD) : ∀ (n : ℕ) (h : n < cfg0.N), outsAt0 m c n h = accAt m c n h
  | 0, h => by
    rw [outsAt0_A m c ⟨0, h⟩ rfl]
    refine Prod.ext ?_ ?_
    · dsimp only
      rw [out_A_3]
      rfl
    · dsimp only
      rw [out_A_4]
      rfl
  | n + 1, h => by
    have hN : cfg0.N = 1024 := N_0
    have hB : ¬(⟨n + 1, h⟩ : Fin cfg0.N).val % 1024 = 0 := by dsimp only; omega
    rw [outsAt0_B m c ⟨n + 1, h⟩ hB]
    refine Prod.ext ?_ ?_
    · dsimp only
      rw [out_B_3]
      show k0_pay1 _ (outsAt0 m c n _).1 = k0_pay1 _ (accAt m c n _).1
      rw [outsAt_eq c n]
    · dsimp only
      rw [out_B_4]
      show k0_pay2 _ _ (outsAt0 m c n _).2 = k0_pay2 _ _ (accAt m c n _).2
      rw [outsAt_eq c n]

end AnyInstance

/-! ## The closed form, over the extended reals -/

variable (m : (ℓ : Loc nD τ sig) → Buf (Elt Ideal) ℓ)

/-- The three argument arrays as the region finds them. -/
abbrev arg0 (c : Dev nD) : Arr4 := m ((c : Thread nD τ).loc main_arg0)
abbrev arg1 (c : Dev nD) : Arr1 := m ((c : Thread nD τ).loc main_arg1)
abbrev arg2 (c : Dev nD) : Arr4 := m ((c : Thread nD τ).loc main_arg2)

/-- Where the three input windows sit at point `t`: block row `t`, block column 0. -/
theorem index_facts : ∀ t : Fin cfg0.N,
    win0_0.index t 0 = t.val ∧ win0_0.index t 1 = 0 ∧ win0_1.index t 0 = t.val ∧ win0_1.index t 1 = 0
      ∧ win0_2.index t 0 = t.val ∧ win0_2.index t 1 = 0 :=
  (by decide +kernel : ∀ t : Fin grid0.N,
    win0_0.index t 0 = t.val ∧ win0_0.index t 1 = 0 ∧ win0_1.index t 0 = t.val ∧ win0_1.index t 1 = 0
      ∧ win0_2.index t 0 = t.val ∧ win0_2.index t 1 = 0)

/-- Entry (k, l) of the first window's block at point `t` is entry (4096 t + k, l) of the first argument. -/
theorem blk0_apply (c : Dev nD) (t : Fin cfg0.N) (ht : t.val < 1024) (k : Fin 4096) (l : Fin 4) :
    (iblk m c 0 t : Vec Ideal S4096x4 .f32) (ix2 k l) = arg0 m c (ix2 (tileRow ⟨t.val, ht⟩ k) l) := by
  have hi := index_facts t
  unfold iblk
  rw [View.read_apply]
  show V m c main_arg0 _ = m (c.tc.loc main_arg0) _
  unfold V
  congr 1
  funext a
  apply Fin.ext
  match a with
  | ⟨0, _⟩ => show win0_0.index t 0 * 4096 + 1 * k.val = 4096 * t.val + k.val; rw [hi.1]; omega
  | ⟨1, _⟩ => show win0_0.index t 1 * 4 + 1 * l.val = l.val; rw [hi.2.1]; omega

/-- Entry (k, 0) of the second window's block at point `t` is entry (4096 t + k, 0) of the second argument. -/
theorem blk1_apply (c : Dev nD) (t : Fin cfg0.N) (ht : t.val < 1024) (k : Fin 4096) (l : Fin 1) :
    (iblk m c 1 t : Vec Ideal S4096x1 .f32) (ix2 k l) = arg1 m c (ix2 (tileRow ⟨t.val, ht⟩ k) l) := by
  have hi := index_facts t
  unfold iblk
  rw [View.read_apply]
  show V m c main_arg1 _ = m (c.tc.loc main_arg1) _
  unfold V
  congr 1
  funext a
  apply Fin.ext
  match a with
  | ⟨0, _⟩ => show win0_1.index t 0 * 4096 + 1 * k.val = 4096 * t.val + k.val; rw [hi.2.2.1]; omega
  | ⟨1, _⟩ => show win0_1.index t 1 * 1 + 1 * l.val = l.val; rw [hi.2.2.2.1]; omega

/-- Entry (k, l) of the third window's block at point `t` is entry (4096 t + k, l) of the third argument. -/
theorem blk2_apply (c : Dev nD) (t : Fin cfg0.N) (ht : t.val < 1024) (k : Fin 4096) (l : Fin 4) :
    (iblk m c 2 t : Vec Ideal S4096x4 .f32) (ix2 k l) = arg2 m c (ix2 (tileRow ⟨t.val, ht⟩ k) l) := by
  have hi := index_facts t
  unfold iblk
  rw [View.read_apply]
  show V m c main_arg2 _ = m (c.tc.loc main_arg2) _
  unfold V
  congr 1
  funext a
  apply Fin.ext
  match a with
  | ⟨0, _⟩ => show win0_2.index t 0 * 4096 + 1 * k.val = 4096 * t.val + k.val; rw [hi.2.2.2.2.1]; omega
  | ⟨1, _⟩ => show win0_2.index t 1 * 4 + 1 * l.val = l.val; rw [hi.2.2.2.2.2]; omega

/-- Tile `n`'s sum of squares (zero past the grid). -/
def tileSq (c : Dev nD) (n : ℕ) : EReal :=
  if h : n < 1024 then ∑ k : Fin 4096, ∑ l : Fin 4, sqd (arg0 m c (ix2 (tileRow ⟨n, h⟩ k) l)) (arg2 m c (ix2 (tileRow ⟨n, h⟩ k) l))
  else 0
/-- Tile `n`'s sum of negated cross-entropies (zero past the grid). -/
def tileNegXent (c : Dev nD) (n : ℕ) : EReal :=
  if h : n < 1024 then ∑ k : Fin 4096, -(rowLoss (arg0 m c) (arg1 m c) (arg2 m c) (tileRow ⟨n, h⟩ k)) else 0

/-- The first tile term of point `t`, from the body's payload. -/
theorem tile_sq_eq (c : Dev nD) (t : Fin cfg0.N) (j : S1x1.Idx) :
    k0_pay5 (F := Ideal) (iblk m c 0 t) (iblk m c 2 t) j = tileSq m c t.val := by
  have ht : t.val < 1024 := lt_of_lt_of_eq t.isLt (show cfg0.N = 1024 from N_0)
  refine (Tile.pay5_apply (iblk m c 0 t) (iblk m c 2 t) j).trans ?_
  unfold tileSq
  rw [dif_pos ht]
  refine Finset.sum_congr rfl fun k _ => Finset.sum_congr rfl fun l _ => ?_
  rw [blk0_apply m c t ht k l, blk2_apply m c t ht k l]

/-- The second tile term of point `t`, from the body's payloads. -/
theorem tile_xent_eq (c : Dev nD) (t : Fin cfg0.N) (a : Vec Ideal S1x1 .f32) (j : S1x1.Idx) :
    k0_pay2 (F := Ideal) (k0_pay6 (iblk m c 0 t) (iblk m c 2 t)) (iblk m c 1 t) a j = a j + tileNegXent m c t.val := by
  have ht : t.val < 1024 := lt_of_lt_of_eq t.isLt (show cfg0.N = 1024 from N_0)
  refine (Tile.pay2_apply (k0_pay6 (iblk m c 0 t) (iblk m c 2 t)) (iblk m c 1 t) a j).trans ?_
  unfold tileNegXent
  rw [dif_pos ht]
  refine congrArg (a j + ·) (Finset.sum_congr rfl fun k _ => ?_)
  rw [zero_sub_eq_neg, Tile.pay6_apply (iblk m c 0 t) (iblk m c 2 t) k, blk1_apply m c t ht k 0]
  unfold rowLoss rowOf
  refine congrArg (fun u => -(xent u _)) ?_
  refine congrArg₂ iou (funext fun l => blk0_apply m c t ht k l) (funext fun l => blk2_apply m c t ht k l)

/-- After point `n` the accumulators hold the sums of the tile terms of points `0 … n`. -/
theorem accAt_closed (c : Dev nD) : ∀ (n : ℕ) (h : n < cfg0.N) (j : S1x1.Idx),
    (accAt m c n h).1 j = ∑ i ∈ Finset.range (n + 1), tileSq m c i
      ∧ (accAt m c n h).2 j = ∑ i ∈ Finset.range (n + 1), tileNegXent m c i
  | 0, h, j => by
    refine ⟨?_, ?_⟩
    · show k0_pay1 (F := Ideal) (k0_pay5 (iblk m c 0 ⟨0, h⟩) (iblk m c 2 ⟨0, h⟩)) (k0_pay3 (F := Ideal)) j = _
      rw [Tile.pay1_apply, tile_sq_eq m c ⟨0, h⟩ j, Tile.pay3_apply, zero_add_eq, Finset.sum_range_one]
    · show k0_pay2 (F := Ideal) (k0_pay6 (iblk m c 0 ⟨0, h⟩) (iblk m c 2 ⟨0, h⟩)) (iblk m c 1 ⟨0, h⟩) (k0_pay4 (F := Ideal)) j = _
      rw [tile_xent_eq m c ⟨0, h⟩ (k0_pay4 (F := Ideal)) j, Tile.pay4_apply, zero_add_eq, Finset.sum_range_one]
  | n + 1, h, j => by
    have ih := accAt_closed c n (Nat.lt_of_succ_lt h) j
    refine ⟨?_, ?_⟩
    · show k0_pay1 (F := Ideal) (k0_pay5 (iblk m c 0 ⟨n + 1, h⟩) (iblk m c 2 ⟨n + 1, h⟩)) (accAt m c n _).1 j = _
      rw [Tile.pay1_apply, tile_sq_eq m c ⟨n + 1, h⟩ j, ih.1, Finset.sum_range_succ _ (n + 1)]
    · show k0_pay2 (F := Ideal) (k0_pay6 (iblk m c 0 ⟨n + 1, h⟩) (iblk m c 2 ⟨n + 1, h⟩)) (iblk m c 1 ⟨n + 1, h⟩) (accAt m c n _).2 j = _
      rw [tile_xent_eq m c ⟨n + 1, h⟩ _ j, ih.2, Finset.sum_range_succ _ (n + 1)]

/-- After the last point the first accumulator holds the sum of all squared differences. -/
theorem acc_last_sq (c : Dev nD) (h : 1023 < cfg0.N) (j : S1x1.Idx) :
    (accAt m c 1023 h).1 j = sqSum (arg0 m c) (arg2 m c) := by
  rw [(accAt_closed m c 1023 h j).1, Finset.sum_range]
  unfold sqSum
  rw [sum_rows_by_tiles]
  refine Finset.sum_congr rfl fun t _ => ?_
  unfold tileSq
  rw [dif_pos t.isLt]

/-- After the last point the second accumulator holds minus the sum of all rows' cross-entropies. -/
theorem acc_last_xent (c : Dev nD) (h : 1023 < cfg0.N) (j : S1x1.Idx) :
    (accAt m c 1023 h).2 j = -(xentSum (arg0 m c) (arg1 m c) (arg2 m c)) := by
  rw [(accAt_closed m c 1023 h j).2, Finset.sum_range]
  unfold xentSum
  rw [← (Cert.Lib.ColumnSum.sum_neg_of_ne_top Finset.univ (rowLoss (arg0 m c) (arg1 m c) (arg2 m c)) fun r _ => xent_ne_top _ _).2,
    sum_rows_by_tiles]
  refine Finset.sum_congr rfl fun t _ => ?_
  unfold tileNegXent
  rw [dif_pos t.isLt]

end Cert.KernelIdeal.Acc

end
-- ==== Proof.KernelFinal.lean ====
/-
  The kernel's three results as functions of the argument arrays.

  Each accumulator's [1, 1] array is written back once, after the last grid point, and that one block is the whole
  array; so after the region the two arrays hold the accumulators' last values (`final3`, `final4`).  The eleven host
  operations after the region reshape each [1, 1] array to a scalar, divide by the entry count (16777216) and by the row
  count (4194304), multiply each by the weight 1.0 and add: read at the ideal instance, with the accumulators' closed
  forms of Proof/KernelAcc.lean and the law that the quotient by the row count commutes with negation, the three
  results are the specification's `coordLoss`, `confLoss` and `totalLoss` of the argument arrays.
-/
import proofs.«117248_j41618233098445_1_alg».proof.Proof.KernelAcc
import Idealize.ShloMosaic.Lib.StableHlo.Run

noncomputable section

open scoped BigOperators

open Idealize.ShloMosaic Idealize.ShloMosaic.TcCoe Idealize.SL.Sem Idealize.ShloMosaic.ValueIdx
open Idealize.ShloMosaic.Pipeline (Dat)

namespace Cert.KernelIdeal.Final

open Cert.KernelIdeal Cert.KernelIdeal.Gen Cert.KernelIdeal.Acc Cert.Loss

section AnyInstance

variable {F : FTy → Type} [FloatOps F]
variable (m : (ℓ : Loc nD τ sig) → Buf (Elt F) ℓ) (ρ : Dev nD → PrngReg)

/-- The last grid point. -/
def tLast : Fin cfg0.N := ⟨1023, by rw [show cfg0.N = 1024 from N_0]; decide⟩

/-- The accumulators' last values, as contents of their arrays. -/
abbrev last3 (c : Dev nD) : Buf (Elt F) ((c : Thread nD τ).loc main_v0_0) := (accAt m c 1023 tLast.isLt).1
abbrev last4 (c : Dev nD) : Buf (Elt F) ((c : Thread nD τ).loc main_v0_1) := (accAt m c 1023 tLast.isLt).2

/-- Both output windows sit at block (0, 0) at every point. -/
theorem out_index_facts : ∀ t : Fin cfg0.N,
    win0_3.index t 0 = 0 ∧ win0_3.index t 1 = 0 ∧ win0_4.index t 0 = 0 ∧ win0_4.index t 1 = 0 :=
  (by decide +kernel : ∀ t : Fin grid0.N,
    win0_3.index t 0 = 0 ∧ win0_3.index t 1 = 0 ∧ win0_4.index t 0 = 0 ∧ win0_4.index t 1 = 0)

/-- The one write-back of the first accumulator writes its last value: block (0, 0) of the [1, 1] array is the array. -/
theorem flushed3_eq (c : Dev nD) (t : Fin cfg0.N) (hf : (cfg0.win 3).flush t = true) :
    (dats m 0 c).flushed 3 t = ((cfg0.win 3).blk t).view.read (Elt F) (last3 m c) := by
  have hN : cfg0.N = 1024 := N_0
  have h3 : t.val = 1023 := by have := (flush0_3 t).mp hf; have := t.isLt; omega
  obtain rfl : t = tLast := Fin.ext h3
  show (cfg0.win 3).cut (grid0.coords tLast) ((dats m 0 c).after 3 tLast) = _
  rw [after0_3, outsAt_eq]
  have hi := out_index_facts tLast
  have hz' : (fun a => win0_3.index tLast a * main_v0_0.ty.shape.size a) = fun _ => 0 := funext fun a => by
    match a with
    | ⟨0, _⟩ => show win0_3.index tLast 0 * 1 = 0; rw [hi.1]
    | ⟨1, _⟩ => show win0_3.index tLast 1 * 1 = 0; rw [hi.2.1]
  exact (Memref.read_access_unit_zero (Elt F) main_v0_0 hz' (fun a => by rw [congrFun hz' a]; simp) (last3 m c)).symm

theorem flushed4_eq (c : Dev nD) (t : Fin cfg0.N) (hf : (cfg0.win 4).flush t = true) :
    (dats m 0 c).flushed 4 t = ((cfg0.win 4).blk t).view.read (Elt F) (last4 m c) := by
  have hN : cfg0.N = 1024 := N_0
  have h3 : t.val = 1023 := by have := (flush0_4 t).mp hf; have := t.isLt; omega
  obtain rfl : t = tLast := Fin.ext h3
  show (cfg0.win 4).cut (grid0.coords tLast) ((dats m 0 c).after 4 tLast) = _
  rw [after0_4, outsAt_eq]
  have hi := out_index_facts tLast
  have hz' : (fun a => win0_4.index tLast a * main_v0_1.ty.shape.size a) = fun _ => 0 := funext fun a => by
    match a with
    | ⟨0, _⟩ => show win0_4.index tLast 0 * 1 = 0; rw [hi.2.2.1]
    | ⟨1, _⟩ => show win0_4.index tLast 1 * 1 = 0; rw [hi.2.2.2]
  exact (Memref.read_access_unit_zero (Elt F) main_v0_1 hz' (fun a => by rw [congrFun hz' a]; simp) (last4 m c)).symm

/-- So after the region the first accumulator's array holds its last value (the last point's block covers it). -/
theorem final3 (c : Dev nD) : (dats m 0 c).arrAt 3 cfg0.N = last3 m c :=
  (dats m 0 c).arrAt_eq_of_cover 3 (last3 m c) (flushed3_eq m c) fun i =>
    ⟨tLast, (flush0_3 tLast).mpr rfl, by
      have hi := out_index_facts tLast
      show i ∈ ((View.whole main_v0_0).slice (win0_3.rect tLast)).set
      rw [View.set_slice_whole, Rect.mem_set_unit]
      intro a
      have h0 : (i 0 : Nat) < 1 := (i 0).isLt
      have h1 : (i 1 : Nat) < 1 := (i 1).isLt
      match a with
      | ⟨0, _⟩ =>
        show win0_3.index tLast 0 * win0_3.size 0 ≤ (i 0 : Nat) ∧ (i 0 : Nat) < win0_3.index tLast 0 * win0_3.size 0 + win0_3.xsize (grid0.coords tLast) 0
        rw [hi.1, show win0_3.xsize (grid0.coords tLast) 0 = 1 from by decide +kernel]; omega
      | ⟨1, _⟩ =>
        show win0_3.index tLast 1 * win0_3.size 1 ≤ (i 1 : Nat) ∧ (i 1 : Nat) < win0_3.index tLast 1 * win0_3.size 1 + win0_3.xsize (grid0.coords tLast) 1
        rw [hi.2.1, show win0_3.xsize (grid0.coords tLast) 1 = 1 from by decide +kernel]; omega⟩

theorem final4 (c : Dev nD) : (dats m 0 c).arrAt 4 cfg0.N = last4 m c :=
  (dats m 0 c).arrAt_eq_of_cover 4 (last4 m c) (flushed4_eq m c) fun i =>
    ⟨tLast, (flush0_4 tLast).mpr rfl, by
      have hi := out_index_facts tLast
      show i ∈ ((View.whole main_v0_1).slice (win0_4.rect tLast)).set
      rw [View.set_slice_whole, Rect.mem_set_unit]
      intro a
      have h0 : (i 0 : Nat) < 1 := (i 0).isLt
      have h1 : (i 1 : Nat) < 1 := (i 1).isLt
      match a with
      | ⟨0, _⟩ =>
        show win0_4.index tLast 0 * win0_4.size 0 ≤ (i 0 : Nat) ∧ (i 0 : Nat) < win0_4.index tLast 0 * win0_4.size 0 + win0_4.xsize (grid0.coords tLast) 0
        rw [hi.2.2.1, show win0_4.xsize (grid0.coords tLast) 0 = 1 from by decide +kernel]; omega
      | ⟨1, _⟩ =>
        show win0_4.index tLast 1 * win0_4.size 1 ≤ (i 1 : Nat) ∧ (i 1 : Nat) < win0_4.index tLast 1 * win0_4.size 1 + win0_4.xsize (grid0.coords tLast) 1
        rw [hi.2.2.2, show win0_4.xsize (grid0.coords tLast) 1 = 1 from by decide +kernel]; omega⟩

end AnyInstance

/-! ## The three results, over the extended reals -/

variable (m : (ℓ : Loc nD τ sig) → Buf (Elt Ideal) ℓ) (ρ : Dev nD → PrngReg)

/-- What the region leaves in the two accumulators' arrays, as the host operations after it find them. -/
theorem arr3 (c : Dev nD) :
    Pipeline.withArrays (cfgs 0).spec c (V0 m c) (fun w => (dats m 0 c).arrAt w (cfgs 0).N) (Proc.devRef .tc main_v0_0)
      = last3 m c :=
  (Pipeline.withArrays_arr spec0 launch0.win.arr_inj c _ _ 3).trans (final3 m c)
theorem arr4 (c : Dev nD) :
    Pipeline.withArrays (cfgs 0).spec c (V0 m c) (fun w => (dats m 0 c).arrAt w (cfgs 0).N) (Proc.devRef .tc main_v0_1)
      = last4 m c :=
  (Pipeline.withArrays_arr spec0 launch0.win.arr_inj c _ _ 4).trans (final4 m c)

/-- A [1, 1] array reshaped to a scalar reads its one entry. -/
theorem scalar_of_1x1 (x : S1x1.Idx → EReal) (i : S_.Idx) : shapeCast S_ x shapeCasts_S1x1_S_ i = x (ix2 0 0) :=
  shapeCast_apply x shapeCasts_S1x1_S_ i (ix2 0 0) (by
    have h1 : (S1x1.rowMajor (ix2 0 0)).val < 1 := (S1x1.rowMajor (ix2 0 0)).isLt
    have h2 : (S_.rowMajor i).val < 1 := (S_.rowMajor i).isLt
    omega)

/-- The accumulators' last values, entry by entry. -/
theorem last3_apply (c : Dev nD) (j : S1x1.Idx) : last3 m c j = sqSum (arg0 m c) (arg2 m c) :=
  acc_last_sq m c tLast.isLt j
theorem last4_apply (c : Dev nD) (j : S1x1.Idx) : last4 m c j = -(xentSum (arg0 m c) (arg1 m c) (arg2 m c)) :=
  acc_last_xent m c tLast.isLt j

/-- The second result: the mean squared coordinate error. -/
theorem res_v2 (c : Dev nD) :
    Pipeline.afterTail₀ cfgs (dats m) 0 (V0 m) [hostOps1] c main_v2 = fun _ => coordLoss (arg0 m c) (arg2 m c) := by
  unfold Pipeline.afterTail₀
  show StableHlo.after hostOps1 _ (Proc.devRef .tc main_v2) = _
  after_results
  rw [arr3 m c]
  funext i
  show Ideal.div (shapeCast S_ (last3 m c) shapeCasts_S1x1_S_ i) (Ideal.ofBits .f32 0x4B800000#32) = _
  rw [scalar_of_1x1, last3_apply]
  rfl

/-- The third result: the mean cross-entropy, negated (the accumulator holds minus the sum; the quotient by the row
    count commutes with the negation). -/
theorem res_v4 (c : Dev nD) :
    Pipeline.afterTail₀ cfgs (dats m) 0 (V0 m) [hostOps1] c main_v4 = fun _ => confLoss (arg0 m c) (arg1 m c) (arg2 m c) := by
  unfold Pipeline.afterTail₀
  show StableHlo.after hostOps1 _ (Proc.devRef .tc main_v4) = _
  after_results
  rw [arr4 m c]
  funext i
  show Ideal.div (shapeCast S_ (last4 m c) shapeCasts_S1x1_S_ i) (Ideal.ofBits .f32 0x4A800000#32) = _
  rw [scalar_of_1x1, last4_apply, neg_div_rows]
  rfl

/-- The first result: the weighted total. -/
theorem res_v7 (c : Dev nD) :
    Pipeline.afterTail₀ cfgs (dats m) 0 (V0 m) [hostOps1] c main_v7 = fun _ => totalLoss (arg0 m c) (arg1 m c) (arg2 m c) := by
  unfold Pipeline.afterTail₀
  show StableHlo.after hostOps1 _ (Proc.devRef .tc main_v7) = _
  after_results
  rw [arr3 m c, arr4 m c]
  funext i
  show Ideal.ofBits .f32 0x3F800000#32 * Ideal.div (shapeCast S_ (last3 m c) shapeCasts_S1x1_S_ i) (Ideal.ofBits .f32 0x4B800000#32)
      + Ideal.ofBits .f32 0x3F800000#32 * Ideal.div (shapeCast S_ (last4 m c) shapeCasts_S1x1_S_ i) (Ideal.ofBits .f32 0x4A800000#32) = _
  rw [scalar_of_1x1, scalar_of_1x1, last3_apply, last4_apply, neg_div_rows]
  rfl

/-- The kernel's run, read: its three results at the specification's functions of the argument arrays, the arguments
    unchanged. -/
theorem run : θ_run defs (onTc (τ := τ) (main (F := Ideal))) ⟨m, fun _ => 0, ρ⟩ fun r => ∀ c : Dev nD,
      r.2.mem ((c.tc : Thread nD τ).loc main_v7) = (fun _ => totalLoss (arg0 m c) (arg1 m c) (arg2 m c))
      ∧ r.2.mem ((c.tc : Thread nD τ).loc main_v2) = (fun _ => coordLoss (arg0 m c) (arg2 m c))
      ∧ r.2.mem ((c.tc : Thread nD τ).loc main_v4) = (fun _ => confLoss (arg0 m c) (arg1 m c) (arg2 m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v7 (by decide)).trans (res_v7 m c),
     ((h c).2 main_v2 (by decide)).trans (res_v2 m c),
     ((h c).2 main_v4 (by decide)).trans (res_v4 m c),
     ((h c).1 0).trans (((dats m 0 c).arrAt_in 0 rfl _).trans ((A_eq m c 0).trans (V_main_arg0 m c))),
     ((h c).1 1).trans (((dats m 0 c).arrAt_in 1 rfl _).trans ((A_eq m c 1).trans (V_main_arg1 m c))),
     ((h c).1 2).trans (((dats m 0 c).arrAt_in 2 rfl _).trans ((A_eq m c 2).trans (V_main_arg2 m c)))⟩)
    (run_main m ρ)

end Cert.KernelIdeal.Final

end
-- ==== Proof.RefLoss.lean ====
/-
  The reference program computes the specified loss.

  Each stage of the reference is read at an index from its operands at an index.  A column of a [4194304, 4] argument
  (a slice of width one, reshaped to a vector) at row r is the argument's entry (r, column).  From the columns, the
  eight edges of the two boxes of a row, then the row's intersection over union, then the row's cross-entropy term,
  are the specification's functions of the row; the three results are the specification's three sums.

  The reference divides a width by 2.0 where the specification multiplies it by 0.5, and negates the clipped
  confidence where the specification subtracts it from the zero literal; a sum of the reference starts from the zero
  literal and runs over the two-dimensional index set, the specification's over rows and then over columns.
-/
import proofs.«117248_j41618233098445_1_alg».proof.Proof.Spec
import proofs.«117248_j41618233098445_1_alg».proof.Proof.RowLaw
import proofs.«117248_j41618233098445_1_alg».proof.Proof.Gen.ReferenceIdeal.Read

noncomputable section

open scoped BigOperators

namespace Cert.RefLoss

open Cert.ReferenceIdeal Cert.ReferenceIdeal.Read Cert.Loss Idealize.ShloMosaic Idealize.ShloMosaic.ValueIdx

/-- The reference's [4194304, 4] and [4194304, 1] arguments, at the ideal instance. -/
abbrev V4 : Type := (⟨S4194304x4, .f32⟩ : BufTy).Contents (Elt Ideal)
abbrev V1 : Type := (⟨S4194304x1, .f32⟩ : BufTy).Contents (Elt Ideal)

/-! ## Columns

A slice [0:4194304, c:c+1] reshaped to a vector, at row r, is the array's entry (r, c): the composed index function
sends the vector's index r to the pair (r / 1, c + 0). -/

/-- An index of the [4194304, 4] shape with coordinates r and c is the pair (r, c). -/
theorem idx_eq (j : S4194304x4.Idx) (r : Fin 4194304) (c : Fin 4) (h0 : (j 0).val = r.val) (h1 : (j 1).val = c.val) :
    j = ix2 r c := by
  funext a
  match a with
  | ⟨0, _⟩ => exact Fin.ext h0
  | ⟨1, _⟩ => exact Fin.ext h1

theorem v5_at (x : V4) (r : Fin 4194304) : val_main_v5 (F := Ideal) x (ix1 r) = x (ix2 r 0) := by
  rw [val_main_v5_apply, val_main_v4_apply]
  exact congrArg x (idx_eq _ r _ (Nat.div_one _) rfl)
theorem v7_at (x : V4) (r : Fin 4194304) : val_main_v7 (F := Ideal) x (ix1 r) = x (ix2 r 2) := by
  rw [val_main_v7_apply, val_main_v6_apply]
  exact congrArg x (idx_eq _ r _ (Nat.div_one _) rfl)
theorem v12_at (x : V4) (r : Fin 4194304) : val_main_v12 (F := Ideal) x (ix1 r) = x (ix2 r 1) := by
  rw [val_main_v12_apply, val_main_v11_apply]
  exact congrArg x (idx_eq _ r _ (Nat.div_one _) rfl)
theorem v14_at (x : V4) (r : Fin 4194304) : val_main_v14 (F := Ideal) x (ix1 r) = x (ix2 r 3) := by
  rw [val_main_v14_apply, val_main_v13_apply]
  exact congrArg x (idx_eq _ r _ (Nat.div_one _) rfl)
theorem v19_at (x : V4) (r : Fin 4194304) : val_main_v19 (F := Ideal) x (ix1 r) = x (ix2 r 0) := by
  rw [val_main_v19_apply, val_main_v18_apply]
  exact congrArg x (idx_eq _ r _ (Nat.div_one _) rfl)
theorem v21_at (x : V4) (r : Fin 4194304) : val_main_v21 (F := Ideal) x (ix1 r) = x (ix2 r 2) := by
  rw [val_main_v21_apply, val_main_v20_apply]
  exact congrArg x (idx_eq _ r _ (Nat.div_one _) rfl)
theorem v26_at (x : V4) (r : Fin 4194304) : val_main_v26 (F := Ideal) x (ix1 r) = x (ix2 r 1) := by
  rw [val_main_v26_apply, val_main_v25_apply]
  exact congrArg x (idx_eq _ r _ (Nat.div_one _) rfl)
theorem v28_at (x : V4) (r : Fin 4194304) : val_main_v28 (F := Ideal) x (ix1 r) = x (ix2 r 3) := by
  rw [val_main_v28_apply, val_main_v27_apply]
  exact congrArg x (idx_eq _ r _ (Nat.div_one _) rfl)
theorem v33_at (x : V4) (r : Fin 4194304) : val_main_v33 (F := Ideal) x (ix1 r) = x (ix2 r 0) := by
  rw [val_main_v33_apply, val_main_v32_apply]
  exact congrArg x (idx_eq _ r _ (Nat.div_one _) rfl)
theorem v35_at (x : V4) (r : Fin 4194304) : val_main_v35 (F := Ideal) x (ix1 r) = x (ix2 r 2) := by
  rw [val_main_v35_apply, val_main_v34_apply]
  exact congrArg x (idx_eq _ r _ (Nat.div_one _) rfl)
theorem v40_at (x : V4) (r : Fin 4194304) : val_main_v40 (F := Ideal) x (ix1 r) = x (ix2 r 1) := by
  rw [val_main_v40_apply, val_main_v39_apply]
  exact congrArg x (idx_eq _ r _ (Nat.div_one _) rfl)
theorem v42_at (x : V4) (r : Fin 4194304) : val_main_v42 (F := Ideal) x (ix1 r) = x (ix2 r 3) := by
  rw [val_main_v42_apply, val_main_v41_apply]
  exact congrArg x (idx_eq _ r _ (Nat.div_one _) rfl)
theorem v47_at (x : V4) (r : Fin 4194304) : val_main_v47 (F := Ideal) x (ix1 r) = x (ix2 r 0) := by
  rw [val_main_v47_apply, val_main_v46_apply]
  exact congrArg x (idx_eq _ r _ (Nat.div_one _) rfl)
theorem v49_at (x : V4) (r : Fin 4194304) : val_main_v49 (F := Ideal) x (ix1 r) = x (ix2 r 2) := by
  rw [val_main_v49_apply, val_main_v48_apply]
  exact congrArg x (idx_eq _ r _ (Nat.div_one _) rfl)
theorem v54_at (x : V4) (r : Fin 4194304) : val_main_v54 (F := Ideal) x (ix1 r) = x (ix2 r 1) := by
  rw [val_main_v54_apply, val_main_v53_apply]
  exact congrArg x (idx_eq _ r _ (Nat.div_one _) rfl)
theorem v56_at (x : V4) (r : Fin 4194304) : val_main_v56 (F := Ideal) x (ix1 r) = x (ix2 r 3) := by
  rw [val_main_v56_apply, val_main_v55_apply]
  exact congrArg x (idx_eq _ r _ (Nat.div_one _) rfl)

/-! ## Edges

A box's low edge along an axis is its centre minus half its width, its high edge the centre plus half the width; the
reference halves by dividing by 2.0. -/

theorem v10_at (x : V4) (r : Fin 4194304) :
    val_main_v10 (F := Ideal) x (ix1 r) = edgeLo (x (ix2 r 0)) (x (ix2 r 2)) := by
  rw [val_main_v10_apply, val_main_v9_apply, v5_at, v7_at, val_main_v8_apply, val_main_cst_1_apply]
  simp only [Ideal.subf_def, Ideal.hostDivf_def, Ideal.ofBits_def]
  rw [div_two]; rfl
theorem v17_at (x : V4) (r : Fin 4194304) :
    val_main_v17 (F := Ideal) x (ix1 r) = edgeLo (x (ix2 r 1)) (x (ix2 r 3)) := by
  rw [val_main_v17_apply, val_main_v16_apply, v12_at, v14_at, val_main_v15_apply, val_main_cst_2_apply]
  simp only [Ideal.subf_def, Ideal.hostDivf_def, Ideal.ofBits_def]
  rw [div_two]; rfl
theorem v24_at (x : V4) (r : Fin 4194304) :
    val_main_v24 (F := Ideal) x (ix1 r) = edgeHi (x (ix2 r 0)) (x (ix2 r 2)) := by
  rw [val_main_v24_apply, val_main_v23_apply, v19_at, v21_at, val_main_v22_apply, val_main_cst_3_apply]
  simp only [Ideal.addf_def, Ideal.hostDivf_def, Ideal.ofBits_def]
  rw [div_two]; rfl
theorem v31_at (x : V4) (r : Fin 4194304) :
    val_main_v31 (F := Ideal) x (ix1 r) = edgeHi (x (ix2 r 1)) (x (ix2 r 3)) := by
  rw [val_main_v31_apply, val_main_v30_apply, v26_at, v28_at, val_main_v29_apply, val_main_cst_4_apply]
  simp only [Ideal.addf_def, Ideal.hostDivf_def, Ideal.ofBits_def]
  rw [div_two]; rfl
theorem v38_at (x : V4) (r : Fin 4194304) :
    val_main_v38 (F := Ideal) x (ix1 r) = edgeLo (x (ix2 r 0)) (x (ix2 r 2)) := by
  rw [val_main_v38_apply, val_main_v37_apply, v33_at, v35_at, val_main_v36_apply, val_main_cst_5_apply]
  simp only [Ideal.subf_def, Ideal.hostDivf_def, Ideal.ofBits_def]
  rw [div_two]; rfl
theorem v45_at (x : V4) (r : Fin 4194304) :
    val_main_v45 (F := Ideal) x (ix1 r) = edgeLo (x (ix2 r 1)) (x (ix2 r 3)) := by
  rw [val_main_v45_apply, val_main_v44_apply, v40_at, v42_at, val_main_v43_apply, val_main_cst_6_apply]
  simp only [Ideal.subf_def, Ideal.hostDivf_def, Ideal.ofBits_def]
  rw [div_two]; rfl
theorem v52_at (x : V4) (r : Fin 4194304) :
    val_main_v52 (F := Ideal) x (ix1 r) = edgeHi (x (ix2 r 0)) (x (ix2 r 2)) := by
  rw [val_main_v52_apply, val_main_v51_apply, v47_at, v49_at, val_main_v50_apply, val_main_cst_7_apply]
  simp only [Ideal.addf_def, Ideal.hostDivf_def, Ideal.ofBits_def]
  rw [div_two]; rfl
theorem v59_at (x : V4) (r : Fin 4194304) :
    val_main_v59 (F := Ideal) x (ix1 r) = edgeHi (x (ix2 r 1)) (x (ix2 r 3)) := by
  rw [val_main_v59_apply, val_main_v58_apply, v54_at, v56_at, val_main_v57_apply, val_main_cst_8_apply]
  simp only [Ideal.addf_def, Ideal.hostDivf_def, Ideal.ofBits_def]
  rw [div_two]; rfl

/-! ## A row's intersection over union -/

/-- The reference's target of row r is the specification's intersection over union of the row's two boxes. -/
theorem iou_at (x0 x2 : V4) (r : Fin 4194304) :
    val_main_v81 (F := Ideal) x0 x2 (ix1 r) = iou (rowOf x0 r) (rowOf x2 r) := by
  simp only [val_main_v81_apply, val_main_v80_apply, val_main_v79_apply, val_main_cst_11_apply, val_main_v78_apply,
    val_main_v77_apply, val_main_v76_apply, val_main_v75_apply, val_main_v74_apply, val_main_v73_apply,
    val_main_v72_apply, val_main_v71_apply, val_main_v70_apply, val_main_v69_apply, val_main_v68_apply,
    val_main_cst_10_apply, val_main_v67_apply, val_main_v66_apply, val_main_v65_apply, val_main_cst_9_apply,
    val_main_v64_apply, val_main_v63_apply, val_main_v62_apply, val_main_v61_apply, val_main_v60_apply,
    v10_at, v17_at, v24_at, v31_at, v38_at, v45_at, v52_at, v59_at,
    Ideal.hostDivf_def, Ideal.addf_def, Ideal.subf_def, Ideal.mulf_def, Ideal.maximumf_def, Ideal.minimumf_def,
    Ideal.ofBits_def]
  rfl

/-! ## A row's cross-entropy term -/

/-- The target broadcast along the trailing axis of extent one reads the vector of targets at the row. -/
theorem idx82_at (r : Fin 4194304) : idx_main_v82 (ix2 r (0 : Fin 1)) = ix1 r := by
  funext a
  match a with
  | ⟨0, _⟩ => rfl

/-- The reference's term of row r is the specification's: the reference negates the clipped confidence where the
    specification subtracts it from the zero literal. -/
theorem row_at (x0 : V4) (x1 : V1) (x2 : V4) (r : Fin 4194304) :
    val_main_v91 (F := Ideal) x0 x1 x2 (ix2 r 0) = rowLoss x0 x1 x2 r := by
  simp only [val_main_v91_apply, val_main_v90_apply, val_main_v89_apply, val_main_v88_apply, val_main_v87_apply,
    val_main_v86_apply, val_main_cst_14_apply, val_main_v85_apply, val_main_v84_apply, val_main_v83_apply,
    val_main_call0_v4_apply, val_main_call0_v3_apply, val_main_cst_13_apply, val_main_call0_v2_apply,
    val_main_call0_v1_apply, val_main_call0_v0_apply, val_main_cst_12_apply, val_main_v82_apply, idx82_at, iou_at,
    Ideal.hostUnary_log_def, Ideal.hostUnary_log1p_def, Ideal.hostNegf_def, Ideal.negf_def, Ideal.addf_def,
    Ideal.subf_def, Ideal.mulf_def, Ideal.maximumf_def, Ideal.minimumf_def, Ideal.ofBits_def]
  unfold rowLoss xent
  rw [zero_sub_eq_neg]
  rfl

/-! ## The three results -/

/-- The mean squared coordinate error: the reference's sum starts from the zero literal and runs over the
    two-dimensional index set. -/
theorem coord_eq (x0 x2 : V4) : val_main_v3 (F := Ideal) x0 x2 = fun _ => coordLoss x0 x2 := by
  funext i
  rw [val_main_v3_apply, val_main_v2_apply, val_main_cst_apply, val_main_cst_0_apply]
  simp only [val_main_v1_apply, val_main_v0_apply, Ideal.hostDivf_def, Ideal.mulf_def, Ideal.subf_def,
    Ideal.ofBits_def]
  rw [zero_add_eq, sum_idx2]
  rfl

/-- The mean cross-entropy, negated: the sum over the [4194304, 1] index set is the sum over the rows. -/
theorem conf_eq (x0 : V4) (x1 : V1) (x2 : V4) :
    val_main_v94 (F := Ideal) x0 x1 x2 = fun _ => confLoss x0 x1 x2 := by
  funext i
  rw [val_main_v94_apply, val_main_v93_apply, val_main_v92_apply, val_main_cst_15_apply, val_main_cst_16_apply]
  simp only [Ideal.hostNegf_def, Ideal.negf_def, Ideal.hostDivf_def, Ideal.ofBits_def]
  rw [zero_add_eq, sum_idx2]
  simp only [Fin.sum_univ_one, row_at]
  rfl

/-- The weighted total. -/
theorem total_eq (x0 : V4) (x1 : V1) (x2 : V4) :
    val_main_v97 (F := Ideal) x0 x1 x2 = fun _ => totalLoss x0 x1 x2 := by
  funext i
  rw [val_main_v97_apply, val_main_v95_apply, val_main_v96_apply, val_main_cst_17_apply, val_main_cst_18_apply,
    coord_eq, conf_eq]
  simp only [Ideal.addf_def, Ideal.mulf_def, Ideal.ofBits_def]
  rfl

end Cert.RefLoss

end
-- ==== Proof.lean ====
/-
  A detection loss — the mean squared error of predicted against true box coordinates, plus the cross-entropy of a
  predicted confidence against the boxes' intersection over union — computed by a kernel that streams the 4194304 rows
  in 1024 tiles of 4096 and keeps two running sums, against the plain array formula.  Over the extended reals the two
  agree at every input.

  * The per-row quantities are the same functions on both sides (Proof/Spec.lean): the kernel multiplies a width by 0.5
    where the formula divides by 2.0, and subtracts from zero where the formula negates (Proof/RowLaw.lean).
  * A sum over all rows is the sum over the tiles of each tile's sum; the extended reals' addition is commutative and
    associative, infinities included, so this regrouping needs no finiteness.
  * The kernel sums the NEGATED cross-entropies and divides by the row count; the formula divides the sum by the row
    count and negates.  Negation does not pass through a sum of extended reals in general, but it does when no term is
    +∞, and a row's cross-entropy never is: the clipped confidence lies strictly between 0 and 1 whatever the input, so
    both logarithms are negative reals, and a target of ±∞ (a vanishing denominator of the intersection over union)
    makes the term -∞ (Proof/RowLaw.lean).  So the precondition is never opened.

  The kernel's side: what a grid point leaves in the accumulators (Proof/KernelPieces.lean), one tile's partial sums
  entry by entry (Proof/KernelTile.lean), the accumulators after every point and after the last (Proof/KernelAcc.lean),
  the arrays the region leaves and the host operations after it (Proof/KernelFinal.lean).  The formula's side:
  Proof/RefLoss.lean.  The ideal pass rewrote nothing, so the idealized kernel is the kernel's own text.
-/
import proofs.«117248_j41618233098445_1_alg».proof.Defs
import proofs.«117248_j41618233098445_1_alg».proof.Proof.Gen.Kernel
import proofs.«117248_j41618233098445_1_alg».proof.Proof.Gen.Kernel.Skeleton
import proofs.«117248_j41618233098445_1_alg».proof.Proof.Gen.Kernel.Launch
import proofs.«117248_j41618233098445_1_alg».proof.Proof.Gen.Kernel.Points
import proofs.«117248_j41618233098445_1_alg».proof.Proof.Gen.Kernel.Frame
import proofs.«117248_j41618233098445_1_alg».proof.Proof.Gen.KernelIdeal
import proofs.«117248_j41618233098445_1_alg».proof.Proof.Gen.KernelIdeal.Skeleton
import proofs.«117248_j41618233098445_1_alg».proof.Proof.Gen.KernelIdeal.Launch
import proofs.«117248_j41618233098445_1_alg».proof.Proof.Gen.KernelIdeal.Points
import proofs.«117248_j41618233098445_1_alg».proof.Proof.Gen.KernelIdeal.Frame
import proofs.«117248_j41618233098445_1_alg».proof.Proof.Gen.ReferenceIdeal
import proofs.«117248_j41618233098445_1_alg».proof.Proof.Gen.Pre_finite_inputs
import proofs.«117248_j41618233098445_1_alg».proof.Proof.Gen.ReferenceIdeal.Run
import proofs.«117248_j41618233098445_1_alg».proof.Proof.Gen.ReferenceIdeal.Read
import proofs.«117248_j41618233098445_1_alg».proof.Proof.KernelFinal
import proofs.«117248_j41618233098445_1_alg».proof.Proof.RefLoss
import Idealize.ShloMosaic.Adequacy
import Idealize.ShloMosaic.Init

noncomputable section

namespace Cert.Proof

open Idealize.ShloMosaic Idealize.SL.Sem

/-- The kernel runs and leaves its arguments unchanged. -/
theorem frame_k : Cert.frame_Kernel := fun m ρ _ => Cert.Kernel.Gen.frame m ρ
/-- So does its idealization. -/
theorem frame_ki : Cert.frame_KernelIdeal := fun m ρ _ => Cert.KernelIdeal.Gen.frame m ρ
/-- The formula's program is a straight line of host operations: its run, with the results dropped. -/
theorem frame_ri : Cert.frame_ReferenceIdeal := fun m ρ _ =>
  (θ_run Cert.ReferenceIdeal.defs _ _).mono (fun _ h c => ⟨(h c).2.2.2.1, (h c).2.2.2.2.1, (h c).2.2.2.2.2⟩)
    (Cert.ReferenceIdeal.Value.run (F := Ideal) m ρ)

/-- Nothing was rewritten between the kernel and its idealization. -/
theorem preserves : Cert.preserves_Kernel_KernelIdeal := trivial

/-- Both programs end with the total, the coordinate loss and the confidence loss of the specification, evaluated at
    argument arrays that agree. -/
theorem algebraic : Cert.algebraic_KernelIdeal_ReferenceIdeal := by
  intro m ρ m' ρ' _ hagree
  refine ⟨fun c _ => Cert.Loss.totalLoss (Cert.KernelIdeal.Acc.arg0 m c) (Cert.KernelIdeal.Acc.arg1 m c) (Cert.KernelIdeal.Acc.arg2 m c),
    fun c _ => Cert.Loss.coordLoss (Cert.KernelIdeal.Acc.arg0 m c) (Cert.KernelIdeal.Acc.arg2 m c),
    fun c _ => Cert.Loss.confLoss (Cert.KernelIdeal.Acc.arg0 m c) (Cert.KernelIdeal.Acc.arg1 m c) (Cert.KernelIdeal.Acc.arg2 m c),
    Cert.KernelIdeal.Final.run m ρ, ?_⟩
  refine (θ_run Cert.ReferenceIdeal.defs _ _).mono (fun _ h c => ?_) (Cert.ReferenceIdeal.Value.run (F := Ideal) m' ρ')
  obtain ⟨h97, h3, h94, ha0, ha1, ha2⟩ := h c
  refine ⟨h97.trans ?_, h3.trans ?_, h94.trans ?_, ha0, ha1, ha2⟩
  · rw [Cert.ReferenceIdeal.Read.val_main_v97_eq, Cert.RefLoss.total_eq, (hagree c).1, (hagree c).2.1, (hagree c).2.2]
    rfl
  · rw [Cert.ReferenceIdeal.Read.val_main_v3_eq, Cert.RefLoss.coord_eq, (hagree c).1, (hagree c).2.2]
    rfl
  · rw [Cert.ReferenceIdeal.Read.val_main_v94_eq, Cert.RefLoss.conf_eq, (hagree c).1, (hagree c).2.1, (hagree c).2.2]
    rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
